-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x16 : Shape := ⟨2, ![2097152, 16]⟩
abbrev S2097152x3 : Shape := ⟨2, ![2097152, 3]⟩
abbrev S35x64 : Shape := ⟨2, ![35, 64]⟩
abbrev S64x64 : Shape := ⟨2, ![64, 64]⟩
abbrev S64x3 : Shape := ⟨2, ![64, 3]⟩
abbrev S_ : Shape := ⟨0, ![]⟩

class Facts : Prop where
  bcast_S_S2097152x16 : S_.BroadcastsInDim S2097152x16 (![] : Fin 0 → Fin S2097152x16.rank)
  reducesTo_S2097152x16_S_d0_1 : S2097152x16.ReducesTo [0, 1] S_
  h_S_ : 0 < S_.numel
  bcast_S_S2097152x3 : S_.BroadcastsInDim S2097152x3 (![] : Fin 0 → Fin S2097152x3.rank)
  reducesTo_S2097152x3_S_d0_1 : S2097152x3.ReducesTo [0, 1] S_
  bcast_S_S35x64 : S_.BroadcastsInDim S35x64 (![] : Fin 0 → Fin S35x64.rank)
  reducesTo_S35x64_S_d0_1 : S35x64.ReducesTo [0, 1] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_

variable [Facts]

def fn_part1 {F : FTy → Type} [FloatOps F] (main_arg4 : FVec F S64x64 .f32) (main_arg5 : FVec F S64x3 .f32) (main_v13 : IVec S_ 1) (main_v16 : IVec S35x64 1) : IVec S_ 1 :=
  let main_c_5 : IVec S_ 1 := constantI S_ 1 1#1
  let main_v17 : IVec S_ 1 := (fun x v => Host.reduce IntOp.andi x v reducesTo_S35x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x3 .f32 := Host.absf main_arg5
  let main_cst_8 : FVec F S_ .f32 := constant S_ .f32 0x7F800000#32
  let main_v25 : FVec F S64x3 .f32 := broadcastInDim S64x3 ![] bcast_S_S64x3 main_cst_8
  let main_v26 : IVec S64x3 1 := cmpf .olt main_v24 main_v25
  let main_c_9 : IVec S_ 1 := constantI S_ 1 1#1
  let main_v27 : IVec S_ 1 := (fun x v => Host.reduce IntOp.andi x v reducesTo_S64x3_S_d0_1 h_S_) main_v26 main_c_9
  let main_v28 : IVec S_ 1 := andi main_v23 main_v27
  main_v28

def fn {F : FTy → Type} [FloatOps F] (main_arg0 : FVec F S2097152x16 .f32) (main_arg1 : FVec F S2097152x3 .f32) (main_arg2 : FVec F S2097152x3 .f32) (main_arg3 : FVec F S35x64 .f32) (main_arg4 : FVec F S64x64 .f32) (main_arg5 : FVec F S64x3 .f32) : IVec S_ 1 :=
  let main_v0 : FVec F S2097152x16 .f32 := Host.absf main_arg0
  let main_cst : FVec F S_ .f32 := constant S_ .f32 0x7F800000#32
  let main_v1 : FVec F S2097152x16 .f32 := broadcastInDim S2097152x16 ![] bcast_S_S2097152x16 main_cst
  let main_v2 : IVec S2097152x16 1 := cmpf .olt main_v0 main_v1
  let main_c : IVec S_ 1 := constantI S_ 1 1#1
  let main_v3 : IVec S_ 1 := (fun x v => Host.reduce IntOp.andi x v reducesTo_S2097152x16_S_d0_1 h_S_) main_v2 main_c
  let main_v4 : FVec F S2097152x3 .f32 := Host.absf main_arg1
  let main_cst_0 : FVec F S_ .f32 := constant S_ .f32 0x7F800000#32
  let main_v5 : FVec F S2097152x3 .f32 := broadcastInDim S2097152x3 ![] bcast_S_S2097152x3 main_cst_0
  let main_v6 : IVec S2097152x3 1 := cmpf .olt main_v4 main_v5
  let main_c_1 : IVec S_ 1 := constantI S_ 1 1#1
  let main_v7 : IVec S_ 1 := (fun x v => Host.reduce IntOp.andi x v reducesTo_S2097152x3_S_d0_1 h_S_) main_v6 main_c_1
  let main_v8 : IVec S_ 1 := andi main_v3 main_v7
  let main_v9 : FVec F S2097152x3 .f32 := Host.absf main_arg2
  let main_cst_2 : FVec F S_ .f32 := constant S_ .f32 0x7F800000#32
  let main_v10 : FVec F S2097152x3 .f32 := broadcastInDim S2097152x3 ![] bcast_S_S2097152x3 main_cst_2
  let main_v11 : IVec S2097152x3 1 := cmpf .olt main_v9 main_v10
  let main_c_3 : IVec S_ 1 := constantI S_ 1 1#1
  let main_v12 : IVec S_ 1 := (fun x v => Host.reduce IntOp.andi x v reducesTo_S2097152x3_S_d0_1 h_S_) main_v11 main_c_3
  let main_v13 : IVec S_ 1 := andi main_v8 main_v12
  let main_v14 : FVec F S35x64 .f32 := Host.absf main_arg3
  let main_cst_4 : FVec F S_ .f32 := constant S_ .f32 0x7F800000#32
  let main_v15 : FVec F S35x64 .f32 := broadcastInDim S35x64 ![] bcast_S_S35x64 main_cst_4
  let main_v16 : IVec S35x64 1 := cmpf .olt main_v14 main_v15
  fn_part1 (F := F) main_arg4 main_arg5 main_v13 main_v16
-- ==== Kernel.lean ====
abbrev S2097152x16 : Shape := ⟨2, ![2097152, 16]⟩
abbrev S2097152x3 : Shape := ⟨2, ![2097152, 3]⟩
abbrev S35x64 : Shape := ⟨2, ![35, 64]⟩
abbrev S64x64 : Shape := ⟨2, ![64, 64]⟩
abbrev S64x3 : Shape := ⟨2, ![64, 3]⟩
abbrev S4096x16 : Shape := ⟨2, ![4096, 16]⟩
abbrev S4096x3 : Shape := ⟨2, ![4096, 3]⟩
abbrev S4096 : Shape := ⟨1, ![4096]⟩
abbrev S4096x1 : Shape := ⟨2, ![4096, 1]⟩
abbrev S4096x35 : Shape := ⟨2, ![4096, 35]⟩
abbrev S4096x64 : Shape := ⟨2, ![4096, 64]⟩

abbrev nBuf : Space → Nat
  | .hbm => 7
  | .vmem => 11
  | .smem => 0
  | _ => 0

abbrev bufTy : (tb : Table) → Fin (tcTables nBuf tb) → BufTy
  | .hbm, ⟨0, _⟩ => ⟨S2097152x16, .f32⟩
  | .hbm, ⟨1, _⟩ => ⟨S2097152x3, .f32⟩
  | .hbm, ⟨2, _⟩ => ⟨S2097152x3, .f32⟩
  | .hbm, ⟨3, _⟩ => ⟨S35x64, .f32⟩
  | .hbm, ⟨4, _⟩ => ⟨S64x64, .f32⟩
  | .hbm, ⟨5, _⟩ => ⟨S64x3, .f32⟩
  | .hbm, ⟨6, _⟩ => ⟨S2097152x3, .f32⟩
  | .local _ .vmem, ⟨0, _⟩ => ⟨S4096x16, .f32⟩
  | .local _ .vmem, ⟨1, _⟩ => ⟨S4096x16, .f32⟩
  | .local _ .vmem, ⟨2, _⟩ => ⟨S4096x3, .f32⟩
  | .local _ .vmem, ⟨3, _⟩ => ⟨S4096x3, .f32⟩
  | .local _ .vmem, ⟨4, _⟩ => ⟨S4096x3, .f32⟩
  | .local _ .vmem, ⟨5, _⟩ => ⟨S4096x3, .f32⟩
  | .local _ .vmem, ⟨6, _⟩ => ⟨S35x64, .f32⟩
  | .local _ .vmem, ⟨7, _⟩ => ⟨S64x64, .f32⟩
  | .local _ .vmem, ⟨8, _⟩ => ⟨S64x3, .f32⟩
  | .local _ .vmem, ⟨9, _⟩ => ⟨S4096x3, .f32⟩
  | .local _ .vmem, ⟨10, _⟩ => ⟨S4096x3, .f32⟩
  | _, _ => ⟨S2097152x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S35x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S4096x3_S4096x3_0_0 : ∀ a, (![0, 0] : Fin 2 → Nat) a + S4096x3.size a ≤ S4096x3.size a
  h_S4096x3 : 0 < S4096x3.numel
  reduces_S4096x3_S4096 : S4096x3.Reduces [1] S4096
  shapeCasts_S4096_S4096x1 : S4096.ShapeCasts S4096x1
  broadcasts_S4096x1_S4096x3 : S4096x1.Broadcasts S4096x3
  slices_S4096x3_o0_0_S4096x1 : S4096x3.Slices ![0, 0] S4096x1
  slices_S4096x3_o0_1_S4096x1 : S4096x3.Slices ![0, 1] S4096x1
  slices_S4096x3_o0_2_S4096x1 : S4096x3.Slices ![0, 2] S4096x1
  concatenates_S4096x1_S4096x1_S4096x1_S4096x1_S4096x1_S4096x1_S4096x1_S4096x1_S4096x1_S4096x1_S4096x1_S4096x1_S4096x1_S4096x1_S4096x1_S4096x1_S4096x16_d1 : Shape.Concatenates [S4096x1, S4096x1, S4096x1, S4096x1, S4096x1, S4096x1, S4096x1, S4096x1, S4096x1, S4096x1, S4096x1, S4096x1, S4096x1, S4096x1, S4096x1, S4096x1] S4096x16 1
  inb_S4096x16_S4096x16_0_0 : ∀ a, (![0, 0] : Fin 2 → Nat) a + S4096x16.size a ≤ S4096x16.size a
  h_S4096x16 : 0 < S4096x16.numel
  concatenates_S4096x16_S4096x16_S4096x3_S4096x35_d1 : Shape.Concatenates [S4096x16, S4096x16, S4096x3] S4096x35 1
  inb_S35x64_S35x64_0_0 : ∀ a, (![0, 0] : Fin 2 → Nat) a + S35x64.size a ≤ S35x64.size a
  h_S35x64 : 0 < S35x64.numel
  inb_S64x64_S64x64_0_0 : ∀ a, (![0, 0] : Fin 2 → Nat) a + S64x64.size a ≤ S64x64.size a
  h_S64x64 : 0 < S64x64.numel
  inb_S64x3_S64x3_0_0 : ∀ a, (![0, 0] : Fin 2 → Nat) a + S64x3.size a ≤ S64x3.size a
  h_S64x3 : 0 < S64x3.numel
  bitsLt_bf16_f32 : FTy.bits .bf16 < FTy.bits .f32
  dot_S4096x35_S35x64_S4096x64_1_0_0_1_n_n_wf : DotDims.WF S4096x35 S35x64 S4096x64 [1] [0] [0] [1] [] []
  dot_S4096x64_S64x64_S4096x64_1_0_0_1_n_n_wf : DotDims.WF S4096x64 S64x64 S4096x64 [1] [0] [0] [1] [] []
  dot_S4096x64_S64x3_S4096x3_1_0_0_1_n_n_wf : DotDims.WF S4096x64 S64x3 S4096x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S2097152x16.size a
  hwx0_0 : ∀ i : grid0.Coords, EltTy.bits .f32 = 32 ∨ (Rect.block (s := S2097152x16) S4096x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x3.size a ≤ S2097152x3.size a
  hwx0_1 : ∀ i : grid0.Coords, EltTy.bits .f32 = 32 ∨ (Rect.block (s := S2097152x3) S4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x3.size a ≤ S2097152x3.size a
  hwx0_2 : ∀ i : grid0.Coords, EltTy.bits .f32 = 32 ∨ (Rect.block (s := S2097152x3) S4096x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S35x64.size a ≤ S35x64.size a
  hwx0_3 : ∀ i : grid0.Coords, EltTy.bits .f32 = 32 ∨ (Rect.block (s := S35x64) S35x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x3.size a ≤ S64x3.size a
  hwx0_5 : ∀ i : grid0.Coords, EltTy.bits .f32 = 32 ∨ (Rect.block (s := S64x3) S64x3.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x3.size a ≤ S2097152x3.size a
  hwx0_6 : ∀ i : grid0.Coords, EltTy.bits .f32 = 32 ∨ (Rect.block (s := S2097152x3) S4096x3.size (cc0_transform_6 i) (hinb0_6 i)).WholeWords (EltTy.packing .f32)

variable [Facts₀]

def dot_S4096x35_S35x64_S4096x64_1_0_0_1_n_n : DotDims S4096x35 S35x64 S4096x64 where
  lhsContracting := [1]
  rhsContracting := [0]
  lhsNonContracting := [0]
  rhsNonContracting := [1]
  lhsBatch := []
  rhsBatch := []
  wf := dot_S4096x35_S35x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x3_S4096x3_1_0_0_1_n_n : DotDims S4096x64 S64x3 S4096x3 where
  lhsContracting := [1]
  rhsContracting := [0]
  lhsNonContracting := [0]
  rhsNonContracting := [1]
  lhsBatch := []
  rhsBatch := []
  wf := dot_S4096x64_S64x3_S4096x3_1_0_0_1_n_n_wf

abbrev win0_0 : Pipeline.Window sig grid0 :=
  Pipeline.Window.ofSpec (Memref.whole main_arg0) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S35x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S4096x3.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2097152x16 : Shape := ⟨2, ![2097152, 16]⟩
abbrev S2097152x3 : Shape := ⟨2, ![2097152, 3]⟩
abbrev S35x64 : Shape := ⟨2, ![35, 64]⟩
abbrev S64x64 : Shape := ⟨2, ![64, 64]⟩
abbrev S64x3 : Shape := ⟨2, ![64, 3]⟩
abbrev S_ : Shape := ⟨0, ![]⟩
abbrev S2097152 : Shape := ⟨1, ![2097152]⟩
abbrev S2097152x1 : Shape := ⟨2, ![2097152, 1]⟩
abbrev S2097152x35 : Shape := ⟨2, ![2097152, 35]⟩
abbrev S2097152x64 : Shape := ⟨2, ![2097152, 64]⟩

abbrev nBuf : Space → Nat
  | .hbm => 149
  | .vmem => 0
  | .smem => 0
  | _ => 0

abbrev hbmTy0_0 (i : Nat) : BufTy := match i % 128 with
  | 0 => ⟨S2097152x16, .f32⟩
  | 1 => ⟨S2097152x3, .f32⟩
  | 2 => ⟨S2097152x3, .f32⟩
  | 3 => ⟨S35x64, .f32⟩
  | 4 => ⟨S64x64, .f32⟩
  | 5 => ⟨S64x3, .f32⟩
  | 6 => ⟨S2097152x3, .f32⟩
  | 7 => ⟨S_, .f32⟩
  | 8 => ⟨S2097152, .f32⟩
  | 9 => ⟨S2097152x1, .f32⟩
  | 10 => ⟨S_, .f32⟩
  | 11 => ⟨S2097152x1, .f32⟩
  | 12 => ⟨S2097152x1, .f32⟩
  | 13 => ⟨S2097152x3, .f32⟩
  | 14 => ⟨S2097152x3, .f32⟩
  | 15 => ⟨S2097152x3, .f32⟩
  | 16 => ⟨S2097152x1, .f32⟩
  | 17 => ⟨S2097152, .f32⟩
  | 18 => ⟨S2097152x1, .f32⟩
  | 19 => ⟨S2097152, .f32⟩
  | 20 => ⟨S2097152x1, .f32⟩
  | 21 => ⟨S2097152, .f32⟩
  | 22 => ⟨S2097152, .f32⟩
  | 23 => ⟨S2097152, .f32⟩
  | 24 => ⟨S2097152, .f32⟩
  | 25 => ⟨S2097152, .f32⟩
  | 26 => ⟨S2097152, .f32⟩
  | 27 => ⟨S2097152, .f32⟩
  | 28 => ⟨S_, .f32⟩
  | 29 => ⟨S2097152, .f32⟩
  | 30 => ⟨S_, .f32⟩
  | 31 => ⟨S2097152, .f32⟩
  | 32 => ⟨S2097152, .f32⟩
  | 33 => ⟨S_, .f32⟩
  | 34 => ⟨S2097152, .f32⟩
  | 35 => ⟨S2097152, .f32⟩
  | 36 => ⟨S_, .f32⟩
  | 37 => ⟨S2097152, .f32⟩
  | 38 => ⟨S2097152, .f32⟩
  | 39 => ⟨S_, .f32⟩
  | 40 => ⟨S2097152, .f32⟩
  | 41 => ⟨S2097152, .f32⟩
  | 42 => ⟨S_, .f32⟩
  | 43 => ⟨S2097152, .f32⟩
  | 44 => ⟨S2097152, .f32⟩
  | 45 => ⟨S_, .f32⟩
  | 46 => ⟨S2097152, .f32⟩
  | 47 => ⟨S2097152, .f32⟩
  | 48 => ⟨S_, .f32⟩
  | 49 => ⟨S2097152, .f32⟩
  | 50 => ⟨S2097152, .f32⟩
  | 51 => ⟨S_, .f32⟩
  | 52 => ⟨S2097152, .f32⟩
  | 53 => ⟨S2097152, .f32⟩
  | 54 => ⟨S2097152, .f32⟩
  | 55 => ⟨S_, .f32⟩
  | 56 => ⟨S2097152, .f32⟩
  | 57 => ⟨S2097152, .f32⟩
  | 58 => ⟨S_, .f32⟩
  | 59 => ⟨S2097152, .f32⟩
  | 60 => ⟨S2097152, .f32⟩
  | 61 => ⟨S_, .f32⟩
  | 62 => ⟨S2097152, .f32⟩
  | 63 => ⟨S2097152, .f32⟩
  | 64 => ⟨S2097152, .f32⟩
  | 65 => ⟨S2097152, .f32⟩
  | 66 => ⟨S_, .f32⟩
  | 67 => ⟨S2097152, .f32⟩
  | 68 => ⟨S2097152, .f32⟩
  | 69 => ⟨S2097152, .f32⟩
  | 70 => ⟨S_, .f32⟩
  | 71 => ⟨S2097152, .f32⟩
  | 72 => ⟨S2097152, .f32⟩
  | 73 => ⟨S_, .f32⟩
  | 74 => ⟨S2097152, .f32⟩
  | 75 => ⟨S2097152, .f32⟩
  | 76 => ⟨S_, .f32⟩
  | 77 => ⟨S2097152, .f32⟩
  | 78 => ⟨S2097152, .f32⟩
  | 79 => ⟨S2097152, .f32⟩
  | 80 => ⟨S_, .f32⟩
  | 81 => ⟨S2097152, .f32⟩
  | 82 => ⟨S2097152, .f32⟩
  | 83 => ⟨S_, .f32⟩
  | 84 => ⟨S2097152, .f32⟩
  | 85 => ⟨S2097152, .f32⟩
  | 86 => ⟨S_, .f32⟩
  | 87 => ⟨S2097152, .f32⟩
  | 88 => ⟨S2097152, .f32⟩
  | 89 => ⟨S2097152, .f32⟩
  | 90 => ⟨S_, .f32⟩
  | 91 => ⟨S2097152, .f32⟩
  | 92 => ⟨S2097152, .f32⟩
  | 93 => ⟨S_, .f32⟩
  | 94 => ⟨S2097152, .f32⟩
  | 95 => ⟨S2097152, .f32⟩
  | 96 => ⟨S_, .f32⟩
  | 97 => ⟨S2097152, .f32⟩
  | 98 => ⟨S2097152, .f32⟩
  | 99 => ⟨S2097152, .f32⟩
  | 100 => ⟨S_, .f32⟩
  | 101 => ⟨S2097152, .f32⟩
  | 102 => ⟨S2097152, .f32⟩
  | 103 => ⟨S2097152, .f32⟩
  | 104 => ⟨S2097152, .f32⟩
  | 105 => ⟨S_, .f32⟩
  | 106 => ⟨S2097152, .f32⟩
  | 107 => ⟨S2097152, .f32⟩
  | 108 => ⟨S2097152, .f32⟩
  | 109 => ⟨S_, .f32⟩
  | 110 => ⟨S2097152, .f32⟩
  | 111 => ⟨S2097152, .f32⟩
  | 112 => ⟨S2097152, .f32⟩
  | 113 => ⟨S2097152, .f32⟩
  | 114 => ⟨S2097152x1, .f32⟩
  | 115 => ⟨S2097152x1, .f32⟩
  | 116 => ⟨S2097152x1, .f32⟩
  | 117 => ⟨S2097152x1, .f32⟩
  | 118 => ⟨S2097152x1, .f32⟩
  | 119 => ⟨S2097152x1, .f32⟩
  | 120 => ⟨S2097152x1, .f32⟩
  | 121 => ⟨S2097152x1, .f32⟩
  | 122 => ⟨S2097152x1, .f32⟩
  | 123 => ⟨S2097152x1, .f32⟩
  | 124 => ⟨S2097152x1, .f32⟩
  | 125 => ⟨S2097152x1, .f32⟩
  | 126 => ⟨S2097152x1, .f32⟩
  | 127 => ⟨S2097152x1, .f32⟩
  | _ => ⟨S2097152x16, .f32⟩

abbrev hbmTy0_1 (i : Nat) : BufTy := match i % 128 with
  | 0 => ⟨S2097152x1, .f32⟩
  | 1 => ⟨S2097152x1, .f32⟩
  | 2 => ⟨S2097152x16, .f32⟩
  | 3 => ⟨S2097152x35, .f32⟩
  | 4 => ⟨S2097152x64, .f32⟩
  | 5 => ⟨S_, .f32⟩
  | 6 => ⟨S2097152x64, .f32⟩
  | 7 => ⟨S2097152x64, .f32⟩
  | 8 => ⟨S2097152x64, .f32⟩
  | 9 => ⟨S_, .f32⟩
  | 10 => ⟨S2097152x64, .f32⟩
  | 11 => ⟨S2097152x64, .f32⟩
  | 12 => ⟨S2097152x3, .f32⟩
  | 13 => ⟨S2097152x3, .f32⟩
  | 14 => ⟨S2097152x3, .f32⟩
  | 15 => ⟨S_, .f32⟩
  | 16 => ⟨S2097152x3, .f32⟩
  | 17 => ⟨S2097152x3, .f32⟩
  | 18 => ⟨S_, .f32⟩
  | 19 => ⟨S2097152x3, .f32⟩
  | 20 => ⟨S2097152x3, .f32⟩
  | _ => ⟨S2097152x16, .f32⟩

abbrev hbmTy (i : Nat) : BufTy := match i / 128 with
  | 0 => hbmTy0_0 i
  | 1 => hbmTy0_1 i
  | _ => ⟨S2097152x16, .f32⟩

abbrev bufTy : (tb : Table) → Fin (tcTables nBuf tb) → BufTy
  | .hbm, ⟨i, _⟩ => hbmTy i
  | _, _ => ⟨S2097152x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_cst_15 : Ref sig .tc := ⟨.hbm, 73, rfl⟩
abbrev main_v51 : Ref sig .tc := ⟨.hbm, 74, rfl⟩
abbrev main_v52 : Ref sig .tc := ⟨.hbm, 75, rfl⟩
abbrev main_cst_16 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩
abbrev main_cst_18 : Ref sig .tc := ⟨.hbm, 83, rfl⟩
abbrev main_v58 : Ref sig .tc := ⟨.hbm, 84, rfl⟩
abbrev main_v59 : Ref sig .tc := ⟨.hbm, 85, rfl⟩
abbrev main_cst_19 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_20 : Ref sig .tc := ⟨.hbm, 90, rfl⟩
abbrev main_v63 : Ref sig .tc := ⟨.hbm, 91, rfl⟩
abbrev main_v64 : Ref sig .tc := ⟨.hbm, 92, rfl⟩
abbrev main_cst_21 : Ref sig .tc := ⟨.hbm, 93, rfl⟩
abbrev main_v65 : Ref sig .tc := ⟨.hbm, 94, rfl⟩
abbrev main_v66 : Ref sig .tc := ⟨.hbm, 95, rfl⟩
abbrev main_cst_22 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_23 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_24 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_25 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_call0_cst : Ref sig .tc := ⟨.hbm, 133, rfl⟩
abbrev main_call0_v0 : Ref sig .tc := ⟨.hbm, 134, rfl⟩
abbrev main_v100 : Ref sig .tc := ⟨.hbm, 135, rfl⟩
abbrev main_v101 : Ref sig .tc := ⟨.hbm, 136, rfl⟩
abbrev main_call1_cst : Ref sig .tc := ⟨.hbm, 137, rfl⟩
abbrev main_call1_v0 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_26 : Ref sig .tc := ⟨.hbm, 143, rfl⟩
abbrev main_v106 : Ref sig .tc := ⟨.hbm, 144, rfl⟩
abbrev main_v107 : Ref sig .tc := ⟨.hbm, 145, rfl⟩
abbrev main_cst_27 : Ref sig .tc := ⟨.hbm, 146, rfl⟩
abbrev main_v108 : Ref sig .tc := ⟨.hbm, 147, rfl⟩
abbrev main_v109 : Ref sig .tc := ⟨.hbm, 148, rfl⟩

abbrev nD : Nat := 1
abbrev τ : Topo := Topo.v7x

variable {F : FTy → Type} [FloatOps F]

class Facts₀ : Prop where
  reducesTo_S2097152x3_S2097152_d1 : S2097152x3.ReducesTo [1] S2097152
  h_S_ : 0 < S_.numel
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  bcast_S2097152x1_S2097152x3_0_1 : S2097152x1.BroadcastsInDim S2097152x3 (![0, 1] : Fin 2 → Fin S2097152x3.rank)
  slices_S2097152x3_S2097152x1_0_0 : S2097152x3.Slices ![0, 0] S2097152x1
  shapeCasts_S2097152x1_S2097152 : S2097152x1.ShapeCasts S2097152
  slices_S2097152x3_S2097152x1_0_1 : S2097152x3.Slices ![0, 1] S2097152x1
  slices_S2097152x3_S2097152x1_0_2 : S2097152x3.Slices ![0, 2] S2097152x1
  bcast_S_S2097152 : S_.BroadcastsInDim S2097152 (![] : Fin 0 → Fin S2097152.rank)
  concatenates_S2097152x1_S2097152x1_S2097152x1_S2097152x1_S2097152x1_S2097152x1_S2097152x1_S2097152x1_S2097152x1_S2097152x1_S2097152x1_S2097152x1_S2097152x1_S2097152x1_S2097152x1_S2097152x1_S2097152x16_d1 : Shape.Concatenates [S2097152x1, S2097152x1, S2097152x1, S2097152x1, S2097152x1, S2097152x1, S2097152x1, S2097152x1, S2097152x1, S2097152x1, S2097152x1, S2097152x1, S2097152x1, S2097152x1, S2097152x1, S2097152x1] S2097152x16 1
  concatenates_S2097152x16_S2097152x16_S2097152x3_S2097152x35_d1 : Shape.Concatenates [S2097152x16, S2097152x16, S2097152x3] S2097152x35 1
  bcast_S_S2097152x64 : S_.BroadcastsInDim S2097152x64 (![] : Fin 0 → Fin S2097152x64.rank)
  bcast_S_S2097152x3 : S_.BroadcastsInDim S2097152x3 (![] : Fin 0 → Fin S2097152x3.rank)
  dot_S2097152x35_S35x64_S2097152x64_1_0_0_1_n_n_wf : DotDims.WF S2097152x35 S35x64 S2097152x64 [1] [0] [0] [1] [] []
  dot_S2097152x64_S64x64_S2097152x64_1_0_0_1_n_n_wf : DotDims.WF S2097152x64 S64x64 S2097152x64 [1] [0] [0] [1] [] []
  dot_S2097152x64_S64x3_S2097152x3_1_0_0_1_n_n_wf : DotDims.WF S2097152x64 S64x3 S2097152x3 [1] [0] [0] [1] [] []

variable [Facts₀]

def dot_S2097152x35_S35x64_S2097152x64_1_0_0_1_n_n : DotDims S2097152x35 S35x64 S2097152x64 where
  lhsContracting := [1]
  rhsContracting := [0]
  lhsNonContracting := [0]
  rhsNonContracting := [1]
  lhsBatch := []
  rhsBatch := []
  wf := dot_S2097152x35_S35x64_S2097152x64_1_0_0_1_n_n_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x3_S2097152x3_1_0_0_1_n_n : DotDims S2097152x64 S64x3 S2097152x3 where
  lhsContracting := [1]
  rhsContracting := [0]
  lhsNonContracting := [0]
  rhsNonContracting := [1]
  lhsBatch := []
  rhsBatch := []
  wf := dot_S2097152x64_S64x3_S2097152x3_1_0_0_1_n_n_wf

class Facts : Prop extends Facts₀ where

variable [Facts]
-- ==== Proof.Spec.lean ====
/-
  The value both programs compute, one sample at a time.

  A sample is a feature row `f` of sixteen numbers, a viewing direction `d` and a surface normal `n` of three numbers each.
  The direction is reflected about the normal, `r = d − (2 · ⟨d, n⟩) · n`. On `r = (x, y, z)` the sixteen real spherical
  harmonics of degree below four are evaluated as polynomials in `x`, `y`, `z` whose coefficients are fixed f32 words.
  The thirty-five numbers `[f, harmonics, n]` pass through a perceptron with weight matrices 35 × 64, 64 × 64 and 64 × 3: after
  each of the first two products every entry is replaced by its maximum with zero, and the three final entries pass through the
  logistic function `t ↦ 1 / (1 + e^(−t))`.

  Everything is stated on the extended reals, where a product of matrices is a plain finite sum. Every float literal is kept as
  the f32 word it is printed with; none is evaluated, except that the word of `1.0` is one and the word of `0.0` is zero where
  a law needs it.
-/
import Idealize.ShloMosaic.PureOps.Ideal
import Idealize.ShloMosaic.PureOps.Ideal.Laws
import Idealize.ShloMosaic.Lib.IdealHost
import Idealize.ShloMosaic.Lib.ValueIdx

noncomputable section

namespace Cert.Radiance

open Idealize.ShloMosaic Idealize.ShloMosaic.ValueIdx

/-- The direction `d` reflected about the normal `n`, component `c`: `d c − (2 · ∑ₖ d k · n k) · n c`. -/
def refl (d n : Fin 3 → EReal) (c : Fin 3) : EReal :=
  d c - (Ideal.ofBits .f32 0x40000000#32 * ∑ k : Fin 3, d k * n k) * n c

/-- The sixteen spherical harmonics of degree below four at the point `(x, y, z)`, as polynomials with f32 coefficients. -/
def sh (x y z : EReal) : Fin 16 → EReal :=
  ![Ideal.ofBits .f32 0x3E906EBB#32,
    Ideal.ofBits .f32 0xBEFA2A1C#32 * y,
    Ideal.ofBits .f32 0x3EFA2A1C#32 * z,
    Ideal.ofBits .f32 0xBEFA2A1C#32 * x,
    Ideal.ofBits .f32 0x3F8BD8A1#32 * (x * y),
    Ideal.ofBits .f32 0xBF8BD8A1#32 * (y * z),
    Ideal.ofBits .f32 0x3F723881#32 * (z * z) - Ideal.ofBits .f32 0x3EA17B01#32,
    Ideal.ofBits .f32 0xBF8BD8A1#32 * (x * z),
    Ideal.ofBits .f32 0x3F0BD8A1#32 * (x * x - y * y),
    Ideal.ofBits .f32 0x3F170D19#32 * y * (Ideal.ofBits .f32 0xC0400000#32 * (x * x) + y * y),
    Ideal.ofBits .f32 0x4038FFC7#32 * (x * y) * z,
    Ideal.ofBits .f32 0x3EEA01E8#32 * y * (Ideal.ofBits .f32 0x3F800000#32 - Ideal.ofBits .f32 0x40A00000#32 * (z * z)),
    Ideal.ofBits .f32 0x3EBF10F8#32 * z * (Ideal.ofBits .f32 0x40A00000#32 * (z * z) - Ideal.ofBits .f32 0x40400000#32),
    Ideal.ofBits .f32 0x3EEA01E8#32 * x * (Ideal.ofBits .f32 0x3F800000#32 - Ideal.ofBits .f32 0x40A00000#32 * (z * z)),
    Ideal.ofBits .f32 0x3FB8FFC7#32 * z * (x * x - y * y),
    Ideal.ofBits .f32 0x3F170D19#32 * x * (-(x * x) + Ideal.ofBits .f32 0x40400000#32 * (y * y))]

/-- The perceptron's input: the sixteen features, then the sixteen harmonics, then the three normal components. -/
def inp (f s : Fin 16 → EReal) (n : Fin 3 → EReal) (i : Fin 35) : EReal :=
  if h : i.val < 16 then f ⟨i.val, h⟩
  else if h' : i.val < 32 then s ⟨i.val - 16, by omega⟩
  else n ⟨i.val - 32, by omega⟩

/-- One layer followed by the maximum with zero: entry `j` of `max (u · W) 0`. -/
def layer {a b : ℕ} (u : Fin a → EReal) (W : Fin a → Fin b → EReal) (j : Fin b) : EReal :=
  max (∑ i : Fin a, u i * W i j) (Ideal.ofBits .f32 0x00000000#32)

/-- The last layer followed by the logistic function: entry `c` of `logistic (h · W)`. -/
def colour (h : Fin 64 → EReal) (W : Fin 64 → Fin 3 → EReal) (c : Fin 3) : EReal :=
  Ideal.logistic (∑ k : Fin 64, h k * W k c)

/-- The whole value of one sample: reflection, harmonics, and the three layers. -/
def row (f : Fin 16 → EReal) (d n : Fin 3 → EReal) (W1 : Fin 35 → Fin 64 → EReal) (W2 : Fin 64 → Fin 64 → EReal)
    (W3 : Fin 64 → Fin 3 → EReal) (c : Fin 3) : EReal :=
  colour (layer (layer (inp f (sh (refl d n 0) (refl d n 1) (refl d n 2)) n) W1) W2) W3 c

/-- The result array over all 2097152 samples: entry `(r, c)` is `row` of the `r`-th rows of the three sample arrays. -/
def radiance (X : (⟨2, ![2097152, 16]⟩ : Shape).Idx → EReal) (D Nm : (⟨2, ![2097152, 3]⟩ : Shape).Idx → EReal)
    (W1 : (⟨2, ![35, 64]⟩ : Shape).Idx → EReal) (W2 : (⟨2, ![64, 64]⟩ : Shape).Idx → EReal)
    (W3 : (⟨2, ![64, 3]⟩ : Shape).Idx → EReal) : (⟨2, ![2097152, 3]⟩ : Shape).Idx → EReal :=
  fun i => row (fun a => X (ix2 (i 0) a)) (fun a => D (ix2 (i 0) a)) (fun a => Nm (ix2 (i 0) a))
    (fun a b => W1 (ix2 a b)) (fun a b => W2 (ix2 a b)) (fun a b => W3 (ix2 a b)) (i 1)

/-! ## The three places where the two programs spell one number differently -/

/-- The constant harmonic written as the product of the word of `1.0` with its coefficient is the coefficient. -/
theorem one_mul_lit (w : BitVec 32) : Ideal.ofBits .f32 0x3F800000#32 * Ideal.ofBits .f32 w = Ideal.ofBits .f32 w := by
  rw [Ideal.ofBits_one_f32, one_mul]

/-- Subtracting from the word of `0.0` is negation. -/
theorem zero_sub_lit (a : EReal) : Ideal.ofBits .f32 0x00000000#32 - a = -a := by
  rw [Ideal.ofBits_zero_f32, zero_sub]

/-- The logistic function is the quotient of the word of `1.0` by that word plus the exponential of the negated argument. -/
theorem logistic_eq_div (t : EReal) :
    Ideal.div (Ideal.ofBits .f32 0x3F800000#32) (Ideal.ofBits .f32 0x3F800000#32 + Ideal.exp (-t)) = Ideal.logistic t := by
  rw [Ideal.ofBits_one_f32]; rfl

end Cert.Radiance

end
-- ==== Proof.LibColumnLayout.lean ====
/-
  Column layouts read at an index, and a row sum at the ideal instance.

  A sum over the last axis of an `[a, b]` array taken with the axis kept leaves a column `[a, 1]`. Three re-layings of such a
  column occur around it: the cast of a vector `[a]` to the column `[a, 1]`, the cast of a column `[a, 1]` to the row `[1, a]`
  (the same `a` numbers in the same row-major order), and the broadcast of a column `[a, 1]` along a new second extent to
  `[a, b]`. Each, read at an index, is the operand at the evident index: entry `(i, 0)` of the column is entry `i` of the vector,
  entry `(0, i)` of the row is entry `(i, 0)` of the column, and entry `(p, c)` of the broadcast is entry `(p, 0)` of the column.
  The host's `broadcast_in_dim` of a vector to a column along axis 0 reads the same way.

  On the extended reals a sum along the second axis of an `[a, b]` array, at row `p`, is the sum over `d` of the entries
  `(p, d)` — for a vector reduction and for the host's reduction from an initial value alike.
-/
import Idealize.ShloMosaic.Lib.ValueLayout
import Idealize.ShloMosaic.PureOps.Ideal.Laws

noncomputable section

namespace Cert.LibColumnLayout

open Idealize.ShloMosaic Idealize.ShloMosaic.ValueIdx

variable {α : Type}

/-! ## A vector as a column, a column as a row, a column broadcast along rows -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to the row `[1, a]` reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an `[a]` array to the column `[a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A sum along the second axis, on the extended reals -/

/-- A vector reduction by addition along the second axis of an `[a, b]` array, at row `p`: the sum of that row. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) : multiReduction .add [1] ⟨1, ![a]⟩ src acc h hφ hacc (ix1 p) = ∑ d : Fin b, src (ix2 p d) := by
  refine (Ideal.multiReduction_add_single src acc h hφ hacc (ix1 p)).trans ?_
  refine Finset.sum_congr rfl fun d _ => congrArg src ?_
  funext ax; apply Fin.ext
  match ax with
  | ⟨0, _⟩ => rfl
  | ⟨1, _⟩ => rfl

/-- The host's reduction by addition along the second axis from an initial value, at row `p`: the initial value plus the
    sum of that row. -/
theorem hostReduceAdd_rows_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ d : Fin b, x (ix2 p d) := by
  refine (Ideal.hostReduceAdd_single h' h x init (ix1 p)).trans ?_
  refine congrArg (init + ·) (Finset.sum_congr rfl fun d _ => congrArg x ?_)
  funext ax; apply Fin.ext
  match ax with
  | ⟨0, _⟩ => rfl
  | ⟨1, _⟩ => rfl

end Cert.LibColumnLayout

end
-- ==== Proof.KernelReflect.lean ====
/-
  The kernel's reflected direction and the monomials it forms from it, read at a row.

  Row `p` of the reflected-direction array is `refl` of the `p`-th rows of the direction and normal blocks. Its three columns,
  cut out as `[4096, 1]` arrays, are `x`, `y`, `z`; every product and every first-to-second-degree harmonic the kernel forms from
  them before the concatenation is, at row `p`, the corresponding polynomial in `x`, `y`, `z`.
-/
import proofs.«137730_j23888608100391_2_alg».proof.Proof.Gen.KernelIdeal.Skeleton
import proofs.«137730_j23888608100391_2_alg».proof.Proof.Spec
import proofs.«137730_j23888608100391_2_alg».proof.Proof.LibColumnLayout

noncomputable section

namespace Cert.Radiance

open Idealize.ShloMosaic Idealize.ShloMosaic.ValueIdx
open Cert.KernelIdeal Cert.KernelIdeal.Gen

/-- Row `p`, column `c` of the reflected-direction array: `d c − (2 · ∑ₖ d k · n k) · n c` on the `p`-th rows. -/
theorem pay2_apply (x1 x2 : Vec Ideal S4096x3 .f32) (p : Fin 4096) (c : Fin 3) :
    k0_pay2 x1 x2 (ix2 p c) = refl (fun a => x1 (ix2 p a)) (fun a => x2 (ix2 p a)) c := by
  unfold k0_pay2 refl
  show x1 (ix2 p c) - (broadcastTo S4096x3 _ broadcasts_S4096x1_S4096x3 (ix2 p c)) * x2 (ix2 p c) = _
  refine congrArg (fun t => x1 (ix2 p c) - t * x2 (ix2 p c)) ?_
  -- the broadcast column at (p, c) is the column at (p, 0)
  refine (Cert.LibColumnLayout.broadcastTo_a1_ab_apply _ broadcasts_S4096x1_S4096x3 p c).trans ?_
  show Ideal.ofBits .f32 0x40000000#32 * (shapeCast S4096x1 _ shapeCasts_S4096_S4096x1 (ix2 p (0 : Fin 1))) = _
  refine congrArg (fun t => Ideal.ofBits .f32 0x40000000#32 * t) ?_
  -- the column at (p, 0) is the vector of row sums at p, and that row sum is the plain sum over the row
  refine (Cert.LibColumnLayout.shapeCast_a_a1_apply _ shapeCasts_S4096_S4096x1 p 0).trans ?_
  refine (Cert.LibColumnLayout.multiReduction_add_rows_apply (mulf x1 x2) 0x00000000#32 reduces_S4096x3_S4096 (.inl rfl) rfl p).trans ?_
  rfl

section Columns

variable (x1 x2 : Vec Ideal S4096x3 .f32) (p : Fin 4096) (u : Fin 1)

/-- The first column of the reflected direction at row `p`: `x`. -/
theorem pay3_apply : k0_pay3 x1 x2 (ix2 p u) = refl (fun a => x1 (ix2 p a)) (fun a => x2 (ix2 p a)) 0 := by
  unfold k0_pay3
  refine (extractStridedSlice_apply ![0, 0] (k0_pay2 x1 x2) slices_S4096x3_o0_0_S4096x1 (ix2 p u) (ix2 p (0 : Fin 3)) ?_).trans
    (pay2_apply x1 x2 p 0)
  intro a
  match a with
  | ⟨0, _⟩ => show p.val = 0 + p.val; omega
  | ⟨1, _⟩ => show 0 = 0 + u.val; omega

/-- The second column of the reflected direction at row `p`: `y`. -/
theorem pay4_apply : k0_pay4 x1 x2 (ix2 p u) = refl (fun a => x1 (ix2 p a)) (fun a => x2 (ix2 p a)) 1 := by
  unfold k0_pay4
  refine (extractStridedSlice_apply ![0, 1] (k0_pay2 x1 x2) slices_S4096x3_o0_1_S4096x1 (ix2 p u) (ix2 p (1 : Fin 3)) ?_).trans
    (pay2_apply x1 x2 p 1)
  intro a
  match a with
  | ⟨0, _⟩ => show p.val = 0 + p.val; omega
  | ⟨1, _⟩ => show 1 = 1 + u.val; omega

/-- The third column of the reflected direction at row `p`: `z`. -/
theorem pay5_apply : k0_pay5 x1 x2 (ix2 p u) = refl (fun a => x1 (ix2 p a)) (fun a => x2 (ix2 p a)) 2 := by
  unfold k0_pay5
  refine (extractStridedSlice_apply ![0, 2] (k0_pay2 x1 x2) slices_S4096x3_o0_2_S4096x1 (ix2 p u) (ix2 p (2 : Fin 3)) ?_).trans
    (pay2_apply x1 x2 p 2)
  intro a
  match a with
  | ⟨0, _⟩ => show p.val = 0 + p.val; omega
  | ⟨1, _⟩ => show 2 = 2 + u.val; omega

end Columns

section Monomials

variable (x1 x2 : Vec Ideal S4096x3 .f32) (p : Fin 4096) (u : Fin 1)

local notation "X" => refl (fun a => x1 (ix2 p a)) (fun a => x2 (ix2 p a)) 0
local notation "Y" => refl (fun a => x1 (ix2 p a)) (fun a => x2 (ix2 p a)) 1
local notation "Z" => refl (fun a => x1 (ix2 p a)) (fun a => x2 (ix2 p a)) 2

/-- `x · y`. -/
theorem pay6_apply : k0_pay6 x1 x2 (ix2 p u) = X * Y := by
  show k0_pay3 x1 x2 (ix2 p u) * k0_pay4 x1 x2 (ix2 p u) = _
  rw [pay3_apply, pay4_apply]

/-- `x · x`. -/
theorem pay7_apply : k0_pay7 x1 x2 (ix2 p u) = X * X := by
  show k0_pay3 x1 x2 (ix2 p u) * k0_pay3 x1 x2 (ix2 p u) = _
  rw [pay3_apply]

/-- `y · y`. -/
theorem pay8_apply : k0_pay8 x1 x2 (ix2 p u) = Y * Y := by
  show k0_pay4 x1 x2 (ix2 p u) * k0_pay4 x1 x2 (ix2 p u) = _
  rw [pay4_apply]

/-- `z · z`. -/
theorem pay9_apply : k0_pay9 x1 x2 (ix2 p u) = Z * Z := by
  show k0_pay5 x1 x2 (ix2 p u) * k0_pay5 x1 x2 (ix2 p u) = _
  rw [pay5_apply]

/-- The constant harmonic: the word of `1.0` times the coefficient is the coefficient. -/
theorem pay10_apply : k0_pay10 (F := Ideal) (ix2 p u) = Ideal.ofBits .f32 0x3E906EBB#32 := by
  show Ideal.ofBits .f32 0x3F800000#32 * Ideal.ofBits .f32 0x3E906EBB#32 = _
  exact one_mul_lit _

/-- The degree-one harmonic in `y`. -/
theorem pay11_apply : k0_pay11 x1 x2 (ix2 p u) = Ideal.ofBits .f32 0xBEFA2A1C#32 * Y := by
  show Ideal.ofBits .f32 0xBEFA2A1C#32 * k0_pay4 x1 x2 (ix2 p u) = _
  rw [pay4_apply]

/-- The degree-one harmonic in `z`. -/
theorem pay12_apply : k0_pay12 x1 x2 (ix2 p u) = Ideal.ofBits .f32 0x3EFA2A1C#32 * Z := by
  show Ideal.ofBits .f32 0x3EFA2A1C#32 * k0_pay5 x1 x2 (ix2 p u) = _
  rw [pay5_apply]

/-- The degree-one harmonic in `x`. -/
theorem pay13_apply : k0_pay13 x1 x2 (ix2 p u) = Ideal.ofBits .f32 0xBEFA2A1C#32 * X := by
  show Ideal.ofBits .f32 0xBEFA2A1C#32 * k0_pay3 x1 x2 (ix2 p u) = _
  rw [pay3_apply]

/-- The degree-two harmonic in `x y`. -/
theorem pay14_apply : k0_pay14 x1 x2 (ix2 p u) = Ideal.ofBits .f32 0x3F8BD8A1#32 * (X * Y) := by
  show Ideal.ofBits .f32 0x3F8BD8A1#32 * k0_pay6 x1 x2 (ix2 p u) = _
  rw [pay6_apply]

/-- The degree-two harmonic in `y z`. -/
theorem pay15_apply : k0_pay15 x1 x2 (ix2 p u) = Ideal.ofBits .f32 0xBF8BD8A1#32 * (Y * Z) := by
  show Ideal.ofBits .f32 0xBF8BD8A1#32 * (k0_pay4 x1 x2 (ix2 p u) * k0_pay5 x1 x2 (ix2 p u)) = _
  rw [pay4_apply, pay5_apply]

/-- The degree-two harmonic in `z²`. -/
theorem pay16_apply :
    k0_pay16 x1 x2 (ix2 p u) = Ideal.ofBits .f32 0x3F723881#32 * (Z * Z) - Ideal.ofBits .f32 0x3EA17B01#32 := by
  show Ideal.ofBits .f32 0x3F723881#32 * k0_pay9 x1 x2 (ix2 p u) - Ideal.ofBits .f32 0x3EA17B01#32 = _
  rw [pay9_apply]

/-- The degree-two harmonic in `x z`. -/
theorem pay17_apply : k0_pay17 x1 x2 (ix2 p u) = Ideal.ofBits .f32 0xBF8BD8A1#32 * (X * Z) := by
  show Ideal.ofBits .f32 0xBF8BD8A1#32 * (k0_pay3 x1 x2 (ix2 p u) * k0_pay5 x1 x2 (ix2 p u)) = _
  rw [pay3_apply, pay5_apply]

/-- The degree-two harmonic in `x² − y²`. -/
theorem pay18_apply : k0_pay18 x1 x2 (ix2 p u) = Ideal.ofBits .f32 0x3F0BD8A1#32 * (X * X - Y * Y) := by
  show Ideal.ofBits .f32 0x3F0BD8A1#32 * (k0_pay7 x1 x2 (ix2 p u) - k0_pay8 x1 x2 (ix2 p u)) = _
  rw [pay7_apply, pay8_apply]

end Monomials

end Cert.Radiance

end
-- ==== Proof.KernelHarmonics.lean ====
/-
  The kernel's sixteen harmonic columns, concatenated, read at a row.

  The kernel lays sixteen `[4096, 1]` columns side by side into a `[4096, 16]` array. Column `q` of row `p` is the `q`-th piece at
  `(p, 0)`, and each piece is the `q`-th spherical harmonic of `sh` evaluated at the reflected direction `(x, y, z)` of row `p`.
-/
import proofs.«137730_j23888608100391_2_alg».proof.Proof.Gen.KernelIdeal.Skeleton
import proofs.«137730_j23888608100391_2_alg».proof.Proof.Spec
import proofs.«137730_j23888608100391_2_alg».proof.Proof.KernelReflect

noncomputable section

namespace Cert.Radiance

open Idealize.ShloMosaic Idealize.ShloMosaic.ValueIdx
open Cert.KernelIdeal Cert.KernelIdeal.Gen

/-- Sixteen unit columns laid side by side: entry `(p, q)` of the concatenation is piece `q` at `(p, 0)`. The pieces before
    piece `q` are `q` columns of extent one, so their extents sum to `q`. -/
theorem concat_cols_apply {α : Type} (xs : List ((s : Shape) × (s.Idx → α))) (h : Shape.Concatenates (xs.map (·.1)) S4096x16 1)
    (hsh : xs.map (·.1) = List.replicate 16 S4096x1)
    (p : Fin 4096) (q : Fin 16) (hq : q.val < xs.length) (x₁ : S4096x1.Idx → α) (hxk : xs[q.val] = ⟨S4096x1, x₁⟩) :
    concatenate S4096x16 1 xs h (ix2 p q) = x₁ (ix2 p (0 : Fin 1)) := by
  have hpre : (((xs.take q.val).map (·.1)).map fun s =>
      if h : s.rank = S4096x16.rank then s.size ((1 : Fin S4096x16.rank).cast h.symm) else 0).sum = q.val := by
    rw [List.map_take, hsh, List.take_replicate, List.map_replicate, List.sum_replicate_nat]
    show min q.val 16 * 1 = q.val
    have := q.isLt
    omega
  exact concatenate_apply_piece 1 xs h (ix2 p q) q.val hq S4096x1 x₁ hxk rfl q.val hpre (ix2 p (0 : Fin 1))
    (fun b hb => match b with
      | ⟨0, _⟩ => rfl
      | ⟨1, _⟩ => absurd rfl hb)
    (by show q.val + 0 = q.val; omega)

section Harmonics

variable (x1 x2 : Vec Ideal S4096x3 .f32) (p : Fin 4096)

local notation "X" => refl (fun a => x1 (ix2 p a)) (fun a => x2 (ix2 p a)) 0
local notation "Y" => refl (fun a => x1 (ix2 p a)) (fun a => x2 (ix2 p a)) 1
local notation "Z" => refl (fun a => x1 (ix2 p a)) (fun a => x2 (ix2 p a)) 2
local notation "K" => k0_pay19 (k0_pay3 x1 x2) (k0_pay4 x1 x2) (k0_pay5 x1 x2) (k0_pay6 x1 x2) (k0_pay7 x1 x2) (k0_pay8 x1 x2)
    (k0_pay9 x1 x2) (k0_pay10 (F := Ideal)) (k0_pay11 x1 x2) (k0_pay12 x1 x2) (k0_pay13 x1 x2) (k0_pay14 x1 x2)
    (k0_pay15 x1 x2) (k0_pay16 x1 x2) (k0_pay17 x1 x2) (k0_pay18 x1 x2) (Scalar.ofBits FTy.f32 0x3F170D19#32)

/-- The constant harmonic. -/
theorem harm0 : K (ix2 p (⟨0, by decide⟩ : Fin 16)) = Ideal.ofBits .f32 0x3E906EBB#32 := by
  unfold k0_pay19
  refine (concat_cols_apply _ _ rfl p ⟨0, by decide⟩ (by show (0 : Nat) < 16; decide) _ rfl).trans ?_
  show k0_pay10 (F := Ideal) (ix2 p (0 : Fin 1)) = _
  rw [pay10_apply]

/-- Degree one, in `y`. -/
theorem harm1 : K (ix2 p (⟨1, by decide⟩ : Fin 16)) = Ideal.ofBits .f32 0xBEFA2A1C#32 * Y := by
  unfold k0_pay19
  refine (concat_cols_apply _ _ rfl p ⟨1, by decide⟩ (by show (1 : Nat) < 16; decide) _ rfl).trans ?_
  show k0_pay11 x1 x2 (ix2 p (0 : Fin 1)) = _
  rw [pay11_apply]

/-- Degree one, in `z`. -/
theorem harm2 : K (ix2 p (⟨2, by decide⟩ : Fin 16)) = Ideal.ofBits .f32 0x3EFA2A1C#32 * Z := by
  unfold k0_pay19
  refine (concat_cols_apply _ _ rfl p ⟨2, by decide⟩ (by show (2 : Nat) < 16; decide) _ rfl).trans ?_
  show k0_pay12 x1 x2 (ix2 p (0 : Fin 1)) = _
  rw [pay12_apply]

/-- Degree one, in `x`. -/
theorem harm3 : K (ix2 p (⟨3, by decide⟩ : Fin 16)) = Ideal.ofBits .f32 0xBEFA2A1C#32 * X := by
  unfold k0_pay19
  refine (concat_cols_apply _ _ rfl p ⟨3, by decide⟩ (by show (3 : Nat) < 16; decide) _ rfl).trans ?_
  show k0_pay13 x1 x2 (ix2 p (0 : Fin 1)) = _
  rw [pay13_apply]

/-- Degree two, in `x y`. -/
theorem harm4 : K (ix2 p (⟨4, by decide⟩ : Fin 16)) = Ideal.ofBits .f32 0x3F8BD8A1#32 * (X * Y) := by
  unfold k0_pay19
  refine (concat_cols_apply _ _ rfl p ⟨4, by decide⟩ (by show (4 : Nat) < 16; decide) _ rfl).trans ?_
  show k0_pay14 x1 x2 (ix2 p (0 : Fin 1)) = _
  rw [pay14_apply]

/-- Degree two, in `y z`. -/
theorem harm5 : K (ix2 p (⟨5, by decide⟩ : Fin 16)) = Ideal.ofBits .f32 0xBF8BD8A1#32 * (Y * Z) := by
  unfold k0_pay19
  refine (concat_cols_apply _ _ rfl p ⟨5, by decide⟩ (by show (5 : Nat) < 16; decide) _ rfl).trans ?_
  show k0_pay15 x1 x2 (ix2 p (0 : Fin 1)) = _
  rw [pay15_apply]

/-- Degree two, in `z²`. -/
theorem harm6 : K (ix2 p (⟨6, by decide⟩ : Fin 16)) = Ideal.ofBits .f32 0x3F723881#32 * (Z * Z) - Ideal.ofBits .f32 0x3EA17B01#32 := by
  unfold k0_pay19
  refine (concat_cols_apply _ _ rfl p ⟨6, by decide⟩ (by show (6 : Nat) < 16; decide) _ rfl).trans ?_
  show k0_pay16 x1 x2 (ix2 p (0 : Fin 1)) = _
  rw [pay16_apply]

/-- Degree two, in `x z`. -/
theorem harm7 : K (ix2 p (⟨7, by decide⟩ : Fin 16)) = Ideal.ofBits .f32 0xBF8BD8A1#32 * (X * Z) := by
  unfold k0_pay19
  refine (concat_cols_apply _ _ rfl p ⟨7, by decide⟩ (by show (7 : Nat) < 16; decide) _ rfl).trans ?_
  show k0_pay17 x1 x2 (ix2 p (0 : Fin 1)) = _
  rw [pay17_apply]

/-- Degree two, in `x² − y²`. -/
theorem harm8 : K (ix2 p (⟨8, by decide⟩ : Fin 16)) = Ideal.ofBits .f32 0x3F0BD8A1#32 * (X * X - Y * Y) := by
  unfold k0_pay19
  refine (concat_cols_apply _ _ rfl p ⟨8, by decide⟩ (by show (8 : Nat) < 16; decide) _ rfl).trans ?_
  show k0_pay18 x1 x2 (ix2 p (0 : Fin 1)) = _
  rw [pay18_apply]

/-- Degree three: `y (−3 x² + y²)`. -/
theorem harm9 : K (ix2 p (⟨9, by decide⟩ : Fin 16)) = Ideal.ofBits .f32 0x3F170D19#32 * Y * (Ideal.ofBits .f32 0xC0400000#32 * (X * X) + Y * Y) := by
  unfold k0_pay19
  refine (concat_cols_apply _ _ rfl p ⟨9, by decide⟩ (by show (9 : Nat) < 16; decide) _ rfl).trans ?_
  show Ideal.ofBits .f32 0x3F170D19#32 * k0_pay4 x1 x2 (ix2 p (0 : Fin 1)) * (Ideal.ofBits .f32 0xC0400000#32 * k0_pay7 x1 x2 (ix2 p (0 : Fin 1)) + k0_pay8 x1 x2 (ix2 p (0 : Fin 1))) = _
  rw [pay4_apply, pay7_apply, pay8_apply]

/-- Degree three: `x y z`. -/
theorem harm10 : K (ix2 p (⟨10, by decide⟩ : Fin 16)) = Ideal.ofBits .f32 0x4038FFC7#32 * (X * Y) * Z := by
  unfold k0_pay19
  refine (concat_cols_apply _ _ rfl p ⟨10, by decide⟩ (by show (10 : Nat) < 16; decide) _ rfl).trans ?_
  show Ideal.ofBits .f32 0x4038FFC7#32 * k0_pay6 x1 x2 (ix2 p (0 : Fin 1)) * k0_pay5 x1 x2 (ix2 p (0 : Fin 1)) = _
  rw [pay6_apply, pay5_apply]

/-- Degree three: `y (1 − 5 z²)`. -/
theorem harm11 : K (ix2 p (⟨11, by decide⟩ : Fin 16)) = Ideal.ofBits .f32 0x3EEA01E8#32 * Y * (Ideal.ofBits .f32 0x3F800000#32 - Ideal.ofBits .f32 0x40A00000#32 * (Z * Z)) := by
  unfold k0_pay19
  refine (concat_cols_apply _ _ rfl p ⟨11, by decide⟩ (by show (11 : Nat) < 16; decide) _ rfl).trans ?_
  show Ideal.ofBits .f32 0x3EEA01E8#32 * k0_pay4 x1 x2 (ix2 p (0 : Fin 1)) * (Ideal.ofBits .f32 0x3F800000#32 - Ideal.ofBits .f32 0x40A00000#32 * k0_pay9 x1 x2 (ix2 p (0 : Fin 1))) = _
  rw [pay4_apply, pay9_apply]

/-- Degree three: `z (5 z² − 3)`. -/
theorem harm12 : K (ix2 p (⟨12, by decide⟩ : Fin 16)) = Ideal.ofBits .f32 0x3EBF10F8#32 * Z * (Ideal.ofBits .f32 0x40A00000#32 * (Z * Z) - Ideal.ofBits .f32 0x40400000#32) := by
  unfold k0_pay19
  refine (concat_cols_apply _ _ rfl p ⟨12, by decide⟩ (by show (12 : Nat) < 16; decide) _ rfl).trans ?_
  show Ideal.ofBits .f32 0x3EBF10F8#32 * k0_pay5 x1 x2 (ix2 p (0 : Fin 1)) * (Ideal.ofBits .f32 0x40A00000#32 * k0_pay9 x1 x2 (ix2 p (0 : Fin 1)) - Ideal.ofBits .f32 0x40400000#32) = _
  rw [pay9_apply, pay5_apply]

/-- Degree three: `x (1 − 5 z²)`. -/
theorem harm13 : K (ix2 p (⟨13, by decide⟩ : Fin 16)) = Ideal.ofBits .f32 0x3EEA01E8#32 * X * (Ideal.ofBits .f32 0x3F800000#32 - Ideal.ofBits .f32 0x40A00000#32 * (Z * Z)) := by
  unfold k0_pay19
  refine (concat_cols_apply _ _ rfl p ⟨13, by decide⟩ (by show (13 : Nat) < 16; decide) _ rfl).trans ?_
  show Ideal.ofBits .f32 0x3EEA01E8#32 * k0_pay3 x1 x2 (ix2 p (0 : Fin 1)) * (Ideal.ofBits .f32 0x3F800000#32 - Ideal.ofBits .f32 0x40A00000#32 * k0_pay9 x1 x2 (ix2 p (0 : Fin 1))) = _
  rw [pay3_apply, pay9_apply]

/-- Degree three: `z (x² − y²)`. -/
theorem harm14 : K (ix2 p (⟨14, by decide⟩ : Fin 16)) = Ideal.ofBits .f32 0x3FB8FFC7#32 * Z * (X * X - Y * Y) := by
  unfold k0_pay19
  refine (concat_cols_apply _ _ rfl p ⟨14, by decide⟩ (by show (14 : Nat) < 16; decide) _ rfl).trans ?_
  show Ideal.ofBits .f32 0x3FB8FFC7#32 * k0_pay5 x1 x2 (ix2 p (0 : Fin 1)) * (k0_pay7 x1 x2 (ix2 p (0 : Fin 1)) - k0_pay8 x1 x2 (ix2 p (0 : Fin 1))) = _
  rw [pay5_apply, pay7_apply, pay8_apply]

/-- Degree three: `x (−x² + 3 y²)`; the kernel writes `−x²` as the word of `0.0` less `x²`. -/
theorem harm15 : K (ix2 p (⟨15, by decide⟩ : Fin 16)) = Ideal.ofBits .f32 0x3F170D19#32 * X * (-(X * X) + Ideal.ofBits .f32 0x40400000#32 * (Y * Y)) := by
  unfold k0_pay19
  refine (concat_cols_apply _ _ rfl p ⟨15, by decide⟩ (by show (15 : Nat) < 16; decide) _ rfl).trans ?_
  show Ideal.ofBits .f32 0x3F170D19#32 * k0_pay3 x1 x2 (ix2 p (0 : Fin 1)) * (Ideal.ofBits .f32 0x00000000#32 - k0_pay7 x1 x2 (ix2 p (0 : Fin 1)) + Ideal.ofBits .f32 0x40400000#32 * k0_pay8 x1 x2 (ix2 p (0 : Fin 1))) = _
  rw [pay3_apply, pay7_apply, pay8_apply, zero_sub_lit]

/-- Row `p`, column `q` of the concatenated harmonics is the `q`-th harmonic of `sh` at the reflected direction of row `p`. -/
theorem harmonics_apply (q : Fin 16) : K (ix2 p q) = sh X Y Z q :=
  match q with
  | ⟨0, _⟩ => harm0 x1 x2 p
  | ⟨1, _⟩ => harm1 x1 x2 p
  | ⟨2, _⟩ => harm2 x1 x2 p
  | ⟨3, _⟩ => harm3 x1 x2 p
  | ⟨4, _⟩ => harm4 x1 x2 p
  | ⟨5, _⟩ => harm5 x1 x2 p
  | ⟨6, _⟩ => harm6 x1 x2 p
  | ⟨7, _⟩ => harm7 x1 x2 p
  | ⟨8, _⟩ => harm8 x1 x2 p
  | ⟨9, _⟩ => harm9 x1 x2 p
  | ⟨10, _⟩ => harm10 x1 x2 p
  | ⟨11, _⟩ => harm11 x1 x2 p
  | ⟨12, _⟩ => harm12 x1 x2 p
  | ⟨13, _⟩ => harm13 x1 x2 p
  | ⟨14, _⟩ => harm14 x1 x2 p
  | ⟨15, _⟩ => harm15 x1 x2 p
  | ⟨n + 16, h⟩ => absurd h (by omega)

end Harmonics

end Cert.Radiance

end
-- ==== Proof.KernelInput.lean ====
/-
  Row `p` of the kernel's 35-column block is `inp` of the feature row, the harmonics of the reflected direction, and the normal.
-/
import proofs.«137730_j23888608100391_2_alg».proof.Proof.Gen.KernelIdeal.Skeleton
import proofs.«137730_j23888608100391_2_alg».proof.Proof.Spec
import proofs.«137730_j23888608100391_2_alg».proof.Proof.KernelHarmonics

noncomputable section

namespace Cert.Radiance

open Idealize.ShloMosaic Idealize.ShloMosaic.ValueIdx

open Cert.KernelIdeal Cert.KernelIdeal.Gen in
theorem block_input (x0 : Vec Ideal S4096x16 .f32) (x1 x2 : Vec Ideal S4096x3 .f32) (p : Fin 4096) (i : Fin 35) :
    concatenate S4096x35 1 [⟨S4096x16, x0⟩, ⟨S4096x16, k0_pay19 (k0_pay3 x1 x2) (k0_pay4 x1 x2) (k0_pay5 x1 x2) (k0_pay6 x1 x2)
        (k0_pay7 x1 x2) (k0_pay8 x1 x2) (k0_pay9 x1 x2) (k0_pay10 (F := Ideal)) (k0_pay11 x1 x2) (k0_pay12 x1 x2) (k0_pay13 x1 x2)
        (k0_pay14 x1 x2) (k0_pay15 x1 x2) (k0_pay16 x1 x2) (k0_pay17 x1 x2) (k0_pay18 x1 x2) (Scalar.ofBits .f32 0x3F170D19#32)⟩,
        ⟨S4096x3, x2⟩] concatenates_S4096x16_S4096x16_S4096x3_S4096x35_d1 (ix2 p i)
    = inp (fun a => x0 (ix2 p a))
        (sh (refl (fun a => x1 (ix2 p a)) (fun a => x2 (ix2 p a)) 0) (refl (fun a => x1 (ix2 p a)) (fun a => x2 (ix2 p a)) 1)
          (refl (fun a => x1 (ix2 p a)) (fun a => x2 (ix2 p a)) 2))
        (fun a => x2 (ix2 p a)) i := by
  unfold inp
  by_cases h : i.val < 16
  · -- the first sixteen columns are the feature block's
    rw [dif_pos h]
    exact concatenate_apply_piece 1 _ _ (ix2 p i) 0 (by show (0 : Nat) < 3; decide) S4096x16 x0 rfl rfl 0 rfl (ix2 p (⟨i.val, h⟩ : Fin 16))
      (fun b hb => match b with
        | ⟨0, _⟩ => rfl
        | ⟨1, _⟩ => absurd rfl hb) (by show 0 + i.val = i.val; omega)
  · rw [dif_neg h]
    by_cases h' : i.val < 32
    · -- the next sixteen are the harmonics, column `i − 16`
      rw [dif_pos h']
      refine (concatenate_apply_piece 1 _ _ (ix2 p i) 1 (by show (1 : Nat) < 3; decide) S4096x16 _ rfl rfl 16 rfl
        (ix2 p (⟨i.val - 16, by omega⟩ : Fin 16))
        (fun b hb => match b with
        | ⟨0, _⟩ => rfl
        | ⟨1, _⟩ => absurd rfl hb) (by show 16 + (i.val - 16) = i.val; omega)).trans ?_
      exact harmonics_apply x1 x2 p ⟨i.val - 16, by omega⟩
    · -- the last three are the normal block's
      rw [dif_neg h']
      exact concatenate_apply_piece 1 _ _ (ix2 p i) 2 (by show (2 : Nat) < 3; decide) S4096x3 x2 rfl rfl 32 rfl
        (ix2 p (⟨i.val - 32, by have := i.isLt; omega⟩ : Fin 3))
        (fun b hb => match b with
        | ⟨0, _⟩ => rfl
        | ⟨1, _⟩ => absurd rfl hb) (by show 32 + (i.val - 32) = i.val; omega)

end Cert.Radiance

end
-- ==== Proof.KernelLayers.lean ====
/-
  The perceptron at one row of a block.

  On the extended reals a matrix product accumulated into zero is, entry by entry, the plain sum over the contracted index, and a
  change of float format is the identity. So the kernel's stored value at row `p`, column `c` — three such products with the
  maximum with zero after the first two and the logistic function after the third — is `colour (layer (layer u W1) W2) W3 c`,
  where `u` is row `p` of the 35-column array the first product is fed and `W1`, `W2`, `W3` are the weight blocks.
-/
import proofs.«137730_j23888608100391_2_alg».proof.Proof.Gen.KernelIdeal.Skeleton
import proofs.«137730_j23888608100391_2_alg».proof.Proof.Spec
import Idealize.ShloMosaic.Lib.ValueIdx
import Idealize.ShloMosaic.PureOps.Ideal.Laws

noncomputable section

namespace Cert.Radiance

open Cert.KernelIdeal Cert.KernelIdeal.Gen Idealize.ShloMosaic Idealize.ShloMosaic.ValueIdx

/-! ## The three products, entry by entry -/

theorem lhs1_0 (i : S4096x64.Idx) (q : dot_S4096x35_S35x64_S4096x64_1_0_0_1_n_n.contr.Idx) : (dot_S4096x35_S35x64_S4096x64_1_0_0_1_n_n.lhsIdx i q 0).val = (i 0).val := by
  unfold DotDims.lhsIdx
  rw [dif_neg (show ¬(0 : Fin S4096x35.rank) ∈ dot_S4096x35_S35x64_S4096x64_1_0_0_1_n_n.lhsBatch by decide), dif_pos (show (0 : Fin S4096x35.rank) ∈ dot_S4096x35_S35x64_S4096x64_1_0_0_1_n_n.lhsNonContracting by decide)]
  rfl
theorem lhs1_1 (i : S4096x64.Idx) (q : dot_S4096x35_S35x64_S4096x64_1_0_0_1_n_n.contr.Idx) : (dot_S4096x35_S35x64_S4096x64_1_0_0_1_n_n.lhsIdx i q 1).val = (q ⟨0, by decide⟩).val :=
  dot_S4096x35_S35x64_S4096x64_1_0_0_1_n_n.lhsIdx_val_of_single rfl i q
theorem rhs1_0 (i : S4096x64.Idx) (q : dot_S4096x35_S35x64_S4096x64_1_0_0_1_n_n.contr.Idx) : (dot_S4096x35_S35x64_S4096x64_1_0_0_1_n_n.rhsIdx i q 0).val = (q ⟨0, by decide⟩).val :=
  dot_S4096x35_S35x64_S4096x64_1_0_0_1_n_n.rhsIdx_val_of_single rfl i q
theorem rhs1_1 (i : S4096x64.Idx) (q : dot_S4096x35_S35x64_S4096x64_1_0_0_1_n_n.contr.Idx) : (dot_S4096x35_S35x64_S4096x64_1_0_0_1_n_n.rhsIdx i q 1).val = (i 1).val := by
  unfold DotDims.rhsIdx
  rw [dif_neg (show ¬(1 : Fin S35x64.rank) ∈ dot_S4096x35_S35x64_S4096x64_1_0_0_1_n_n.rhsBatch by decide), dif_pos (show (1 : Fin S35x64.rank) ∈ dot_S4096x35_S35x64_S4096x64_1_0_0_1_n_n.rhsNonContracting by decide)]
  rfl

/-- A [4096, 35] by [35, 64] product accumulated into zero, at `(p, j)`: the sum over `k` of `l (p, k) · r (k, j)`. -/
theorem product1 {φ₁ φ₂ : FTy} (l : FVec Ideal S4096x35 φ₁) (r : FVec Ideal S35x64 φ₂) (p : Fin 4096) (j : Fin 64) :
    matmul (F := Ideal) dot_S4096x35_S35x64_S4096x64_1_0_0_1_n_n none l r (constant (F := Ideal) S4096x64 .f32 0x00000000#32) (ix2 p j)
      = ∑ k : Fin 35, l (ix2 p k) * r (ix2 k j) := by
  simp only [matmul]
  rw [Ideal.matmul_constant_zero_apply, ← Equiv.sum_comp (ValueIdx.contrEquiv1 dot_S4096x35_S35x64_S4096x64_1_0_0_1_n_n 35 rfl rfl).symm]
  refine Finset.sum_congr rfl fun k _ => ?_
  have hk := ValueIdx.contrEquiv1_symm_val dot_S4096x35_S35x64_S4096x64_1_0_0_1_n_n 35 rfl rfl k
  have el : dot_S4096x35_S35x64_S4096x64_1_0_0_1_n_n.lhsIdx (ix2 p j) ((ValueIdx.contrEquiv1 dot_S4096x35_S35x64_S4096x64_1_0_0_1_n_n 35 rfl rfl).symm k) = ix2 p k := funext fun a => Fin.ext (by
    match a with
    | ⟨0, _⟩ => exact lhs1_0 _ _
    | ⟨1, _⟩ => exact (lhs1_1 _ _).trans hk)
  have er : dot_S4096x35_S35x64_S4096x64_1_0_0_1_n_n.rhsIdx (ix2 p j) ((ValueIdx.contrEquiv1 dot_S4096x35_S35x64_S4096x64_1_0_0_1_n_n 35 rfl rfl).symm k) = ix2 k j := funext fun a => Fin.ext (by
    match a with
    | ⟨0, _⟩ => exact (rhs1_0 _ _).trans hk
    | ⟨1, _⟩ => exact rhs1_1 _ _)
  rw [el, er]

theorem lhs2_0 (i : S4096x64.Idx) (q : dot_S4096x64_S64x64_S4096x64_1_0_0_1_n_n.contr.Idx) : (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem lhs2_1 (i : S4096x64.Idx) (q : dot_S4096x64_S64x64_S4096x64_1_0_0_1_n_n.contr.Idx) : (dot_S4096x64_S64x64_S4096x64_1_0_0_1_n_n.lhsIdx i q 1).val = (q ⟨0, by decide⟩).val :=
  dot_S4096x64_S64x64_S4096x64_1_0_0_1_n_n.lhsIdx_val_of_single rfl i q
theorem rhs2_0 (i : S4096x64.Idx) (q : dot_S4096x64_S64x64_S4096x64_1_0_0_1_n_n.contr.Idx) : (dot_S4096x64_S64x64_S4096x64_1_0_0_1_n_n.rhsIdx i q 0).val = (q ⟨0, by decide⟩).val :=
  dot_S4096x64_S64x64_S4096x64_1_0_0_1_n_n.rhsIdx_val_of_single rfl i q
theorem rhs2_1 (i : S4096x64.Idx) (q : dot_S4096x64_S64x64_S4096x64_1_0_0_1_n_n.contr.Idx) : (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- A [4096, 64] by [64, 64] product accumulated into zero, at `(p, j)`: the sum over `k` of `l (p, k) · r (k, j)`. -/
theorem product2 {φ₁ φ₂ : FTy} (l : FVec Ideal S4096x64 φ₁) (r : FVec Ideal S64x64 φ₂) (p : Fin 4096) (j : Fin 64) :
    matmul (F := Ideal) dot_S4096x64_S64x64_S4096x64_1_0_0_1_n_n none l r (constant (F := Ideal) S4096x64 .f32 0x00000000#32) (ix2 p j)
      = ∑ k : Fin 64, l (ix2 p k) * r (ix2 k j) := by
  simp only [matmul]
  rw [Ideal.matmul_constant_zero_apply, ← Equiv.sum_comp (ValueIdx.contrEquiv1 dot_S4096x64_S64x64_S4096x64_1_0_0_1_n_n 64 rfl rfl).symm]
  refine Finset.sum_congr rfl fun k _ => ?_
  have hk := ValueIdx.contrEquiv1_symm_val dot_S4096x64_S64x64_S4096x64_1_0_0_1_n_n 64 rfl rfl k
  have el : dot_S4096x64_S64x64_S4096x64_1_0_0_1_n_n.lhsIdx (ix2 p j) ((ValueIdx.contrEquiv1 dot_S4096x64_S64x64_S4096x64_1_0_0_1_n_n 64 rfl rfl).symm k) = ix2 p k := funext fun a => Fin.ext (by
    match a with
    | ⟨0, _⟩ => exact lhs2_0 _ _
    | ⟨1, _⟩ => exact (lhs2_1 _ _).trans hk)
  have er : dot_S4096x64_S64x64_S4096x64_1_0_0_1_n_n.rhsIdx (ix2 p j) ((ValueIdx.contrEquiv1 dot_S4096x64_S64x64_S4096x64_1_0_0_1_n_n 64 rfl rfl).symm k) = ix2 k j := funext fun a => Fin.ext (by
    match a with
    | ⟨0, _⟩ => exact (rhs2_0 _ _).trans hk
    | ⟨1, _⟩ => exact rhs2_1 _ _)
  rw [el, er]

theorem lhs3_0 (i : S4096x3.Idx) (q : dot_S4096x64_S64x3_S4096x3_1_0_0_1_n_n.contr.Idx) : (dot_S4096x64_S64x3_S4096x3_1_0_0_1_n_n.lhsIdx i q 0).val = (i 0).val := by
  unfold DotDims.lhsIdx
  rw [dif_neg (show ¬(0 : Fin S4096x64.rank) ∈ dot_S4096x64_S64x3_S4096x3_1_0_0_1_n_n.lhsBatch by decide), dif_pos (show (0 : Fin S4096x64.rank) ∈ dot_S4096x64_S64x3_S4096x3_1_0_0_1_n_n.lhsNonContracting by decide)]
  rfl
theorem lhs3_1 (i : S4096x3.Idx) (q : dot_S4096x64_S64x3_S4096x3_1_0_0_1_n_n.contr.Idx) : (dot_S4096x64_S64x3_S4096x3_1_0_0_1_n_n.lhsIdx i q 1).val = (q ⟨0, by decide⟩).val :=
  dot_S4096x64_S64x3_S4096x3_1_0_0_1_n_n.lhsIdx_val_of_single rfl i q
theorem rhs3_0 (i : S4096x3.Idx) (q : dot_S4096x64_S64x3_S4096x3_1_0_0_1_n_n.contr.Idx) : (dot_S4096x64_S64x3_S4096x3_1_0_0_1_n_n.rhsIdx i q 0).val = (q ⟨0, by decide⟩).val :=
  dot_S4096x64_S64x3_S4096x3_1_0_0_1_n_n.rhsIdx_val_of_single rfl i q
theorem rhs3_1 (i : S4096x3.Idx) (q : dot_S4096x64_S64x3_S4096x3_1_0_0_1_n_n.contr.Idx) : (dot_S4096x64_S64x3_S4096x3_1_0_0_1_n_n.rhsIdx i q 1).val = (i 1).val := by
  unfold DotDims.rhsIdx
  rw [dif_neg (show ¬(1 : Fin S64x3.rank) ∈ dot_S4096x64_S64x3_S4096x3_1_0_0_1_n_n.rhsBatch by decide), dif_pos (show (1 : Fin S64x3.rank) ∈ dot_S4096x64_S64x3_S4096x3_1_0_0_1_n_n.rhsNonContracting by decide)]
  rfl

/-- A [4096, 64] by [64, 3] product accumulated into zero, at `(p, j)`: the sum over `k` of `l (p, k) · r (k, j)`. -/
theorem product3 {φ₁ φ₂ : FTy} (l : FVec Ideal S4096x64 φ₁) (r : FVec Ideal S64x3 φ₂) (p : Fin 4096) (j : Fin 3) :
    matmul (F := Ideal) dot_S4096x64_S64x3_S4096x3_1_0_0_1_n_n none l r (constant (F := Ideal) S4096x3 .f32 0x00000000#32) (ix2 p j)
      = ∑ k : Fin 64, l (ix2 p k) * r (ix2 k j) := by
  simp only [matmul]
  rw [Ideal.matmul_constant_zero_apply, ← Equiv.sum_comp (ValueIdx.contrEquiv1 dot_S4096x64_S64x3_S4096x3_1_0_0_1_n_n 64 rfl rfl).symm]
  refine Finset.sum_congr rfl fun k _ => ?_
  have hk := ValueIdx.contrEquiv1_symm_val dot_S4096x64_S64x3_S4096x3_1_0_0_1_n_n 64 rfl rfl k
  have el : dot_S4096x64_S64x3_S4096x3_1_0_0_1_n_n.lhsIdx (ix2 p j) ((ValueIdx.contrEquiv1 dot_S4096x64_S64x3_S4096x3_1_0_0_1_n_n 64 rfl rfl).symm k) = ix2 p k := funext fun a => Fin.ext (by
    match a with
    | ⟨0, _⟩ => exact lhs3_0 _ _
    | ⟨1, _⟩ => exact (lhs3_1 _ _).trans hk)
  have er : dot_S4096x64_S64x3_S4096x3_1_0_0_1_n_n.rhsIdx (ix2 p j) ((ValueIdx.contrEquiv1 dot_S4096x64_S64x3_S4096x3_1_0_0_1_n_n 64 rfl rfl).symm k) = ix2 k j := funext fun a => Fin.ext (by
    match a with
    | ⟨0, _⟩ => exact (rhs3_0 _ _).trans hk
    | ⟨1, _⟩ => exact rhs3_1 _ _)
  rw [el, er]

/-! ## The stored value at a row -/

/-- The body's stored value at `(p, c)`: the three layers applied to row `p` of the concatenated 35-column array. -/
theorem block_layers (v1 : Vec Ideal S4096x3 .f32) (v83 : FVec Ideal S4096x16 .f32) (v84 : Vec Ideal S4096x16 .f32)
    (v86 : Vec Ideal S35x64 .f32) (v87 : Vec Ideal S64x64 .f32) (v88 : Vec Ideal S64x3 .f32) (p : Fin 4096) (c : Fin 3) :
    k0_pay1 v1 v83 v84 v86 v87 v88 (ix2 p c)
    = colour (layer (layer (fun i : Fin 35 => concatenate S4096x35 1 [⟨S4096x16, v84⟩, ⟨S4096x16, v83⟩, ⟨S4096x3, v1⟩]
          concatenates_S4096x16_S4096x16_S4096x3_S4096x35_d1 (ix2 p i)) (fun a b => v86 (ix2 a b))) (fun a b => v87 (ix2 a b)))
        (fun a b => v88 (ix2 a b)) c := by
  unfold k0_pay1 colour layer
  refine congrArg Ideal.logistic ?_
  refine (product3 _ _ p c).trans (Finset.sum_congr rfl fun k _ => congrArg (· * v88 (ix2 k c)) ?_)
  refine congrArg (max · (Ideal.ofBits .f32 0x00000000#32)) ?_
  refine (product2 _ _ p k).trans (Finset.sum_congr rfl fun j _ => congrArg (· * v87 (ix2 j k)) ?_)
  refine congrArg (max · (Ideal.ofBits .f32 0x00000000#32)) ?_
  exact product1 _ _ p j

end Cert.Radiance

end
-- ==== Proof.KernelBlock.lean ====
/-
  The kernel body's stored value, at row `p` and column `c` of a block, is `row` of the `p`-th rows of the block's sample arrays
  and the three weight matrices: row `p` of the 35-column array the first product is fed is `inp` of the feature row, the
  harmonics of the reflected direction and the normal, and the rest is the three layers.
-/
import proofs.«137730_j23888608100391_2_alg».proof.Proof.KernelInput
import proofs.«137730_j23888608100391_2_alg».proof.Proof.KernelLayers

noncomputable section

namespace Cert.Radiance

open Idealize.ShloMosaic Idealize.ShloMosaic.ValueIdx

open Cert.KernelIdeal Cert.KernelIdeal.Gen in
theorem block_eq (x0 : Vec Ideal S4096x16 .f32) (x1 x2 : Vec Ideal S4096x3 .f32) (x3 : Vec Ideal S35x64 .f32)
    (x4 : Vec Ideal S64x64 .f32) (x5 : Vec Ideal S64x3 .f32) (p : Fin 4096) (c : Fin 3) :
    k0_pay1 x2 (k0_pay19 (k0_pay3 x1 x2) (k0_pay4 x1 x2) (k0_pay5 x1 x2) (k0_pay6 x1 x2) (k0_pay7 x1 x2) (k0_pay8 x1 x2)
        (k0_pay9 x1 x2) (k0_pay10 (F := Ideal)) (k0_pay11 x1 x2) (k0_pay12 x1 x2) (k0_pay13 x1 x2) (k0_pay14 x1 x2)
        (k0_pay15 x1 x2) (k0_pay16 x1 x2) (k0_pay17 x1 x2) (k0_pay18 x1 x2) (Scalar.ofBits .f32 0x3F170D19#32))
      x0 x3 x4 x5 (ix2 p c)
    = row (fun a => x0 (ix2 p a)) (fun a => x1 (ix2 p a)) (fun a => x2 (ix2 p a)) (fun a b => x3 (ix2 a b))
        (fun a b => x4 (ix2 a b)) (fun a b => x5 (ix2 a b)) c := by
  refine (block_layers x2 _ x0 x3 x4 x5 p c).trans ?_
  rw [funext fun i : Fin 35 => block_input x0 x1 x2 p i]
  rfl

end Cert.Radiance

end
-- ==== Proof.KernelArray.lean ====
/-
  From blocks to the whole result array.

  The kernel runs at 512 grid points. At point `t` it is handed rows `4096·t … 4096·t + 4095` of the three sample arrays
  (features, viewing directions, normals) and the three weight matrices whole, and it writes rows `4096·t … 4096·t + 4095`
  of the result. Row `p` of what it writes is `row` of row `p` of each block, that is, of row `4096·t + p` of each sample
  array: so what point `t` writes back is block `t` of `radiance` of the six argument arrays. Every row `g` of the result lies
  in exactly the block of point `g / 4096`, so the blocks cover the array and it ends holding `radiance`.
-/
import proofs.«137730_j23888608100391_2_alg».proof.Proof.Gen.KernelIdeal.Value
import proofs.«137730_j23888608100391_2_alg».proof.Proof.KernelBlock
import Idealize.ShloMosaic.Lib.Pipeline.Value

noncomputable section

namespace Cert.Radiance

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The offset of a rectangle that is the whole buffer. -/
theorem zero_off : (![0, 0] : Fin 2 → Nat) = fun _ => 0 := funext fun a => by fin_cases a <;> rfl

/-- There are 512 grid points. -/
theorem point_lt (t : Fin cfg0.N) : t.val < 512 := lt_of_lt_of_eq t.isLt N_0

/-- The block indices at point `t`, decided over the 512 points: the sample arrays and the result are at block `(t, 0)`,
    the weight matrices at block `(0, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block is row `4096·t + p` of the array. -/
def grow (t : Fin cfg0.N) (p : Fin 4096) : Fin 2097152 :=
  ⟨t.val * 4096 + p.val, by have := point_lt t; have := p.isLt; omega⟩

/-! ## Each input block read where the array says -/

theorem features_blk (c : Dev nD) (t : Fin cfg0.N) (p : Fin 4096) (a : Fin 16) :
    iblk m c 0 t (ix2 p a) = V m c main_arg0 (ix2 (grow t p) a) := by
  obtain ⟨e0, e1, -⟩ := index_facts t
  show V m c main_arg0 (((cfg0.win 0).blk t).view.emb (ix2 p a)) = _
  refine congrArg (V m c main_arg0) ?_
  funext ax; apply Fin.ext
  match ax with
  | ⟨0, _⟩ => show win0_0.index t (0 : Fin 2) * 4096 + 1 * p.val = t.val * 4096 + p.val; rw [e0]; omega
  | ⟨1, _⟩ => show win0_0.index t (1 : Fin 2) * 16 + 1 * a.val = a.val; rw [e1]; omega

theorem dirs_blk (c : Dev nD) (t : Fin cfg0.N) (p : Fin 4096) (a : Fin 3) :
    iblk m c 1 t (ix2 p a) = V m c main_arg1 (ix2 (grow t p) a) := by
  obtain ⟨-, -, e0, e1, -⟩ := index_facts t
  show V m c main_arg1 (((cfg0.win 1).blk t).view.emb (ix2 p a)) = _
  refine congrArg (V m c main_arg1) ?_
  funext ax; apply Fin.ext
  match ax with
  | ⟨0, _⟩ => show win0_1.index t (0 : Fin 2) * 4096 + 1 * p.val = t.val * 4096 + p.val; rw [e0]; omega
  | ⟨1, _⟩ => show win0_1.index t (1 : Fin 2) * 3 + 1 * a.val = a.val; rw [e1]; omega

theorem normals_blk (c : Dev nD) (t : Fin cfg0.N) (p : Fin 4096) (a : Fin 3) :
    iblk m c 2 t (ix2 p a) = V m c main_arg2 (ix2 (grow t p) a) := by
  obtain ⟨-, -, -, -, e0, e1, -⟩ := index_facts t
  show V m c main_arg2 (((cfg0.win 2).blk t).view.emb (ix2 p a)) = _
  refine congrArg (V m c main_arg2) ?_
  funext ax; apply Fin.ext
  match ax with
  | ⟨0, _⟩ => show win0_2.index t (0 : Fin 2) * 4096 + 1 * p.val = t.val * 4096 + p.val; rw [e0]; omega
  | ⟨1, _⟩ => show win0_2.index t (1 : Fin 2) * 3 + 1 * a.val = a.val; rw [e1]; omega

theorem w1_blk (c : Dev nD) (t : Fin cfg0.N) (a : Fin 35) (b : Fin 64) :
    iblk m c 3 t (ix2 a b) = V m c main_arg3 (ix2 a b) := by
  obtain ⟨-, -, -, -, -, -, e0, e1, -⟩ := index_facts t
  show V m c main_arg3 (((cfg0.win 3).blk t).view.emb (ix2 a b)) = _
  refine congrArg (V m c main_arg3) ?_
  funext ax; apply Fin.ext
  match ax with
  | ⟨0, _⟩ => show win0_3.index t (0 : Fin 2) * 35 + 1 * a.val = a.val; rw [e0]; omega
  | ⟨1, _⟩ => show win0_3.index t (1 : Fin 2) * 64 + 1 * b.val = b.val; rw [e1]; omega

theorem w2_blk (c : Dev nD) (t : Fin cfg0.N) (a : Fin 64) (b : Fin 64) :
    iblk m c 4 t (ix2 a b) = V m c main_arg4 (ix2 a b) := by
  obtain ⟨-, -, -, -, -, -, -, -, e0, e1, -⟩ := index_facts t
  show V m c main_arg4 (((cfg0.win 4).blk t).view.emb (ix2 a b)) = _
  refine congrArg (V m c main_arg4) ?_
  funext ax; apply Fin.ext
  match ax with
  | ⟨0, _⟩ => show win0_4.index t (0 : Fin 2) * 64 + 1 * a.val = a.val; rw [e0]; omega
  | ⟨1, _⟩ => show win0_4.index t (1 : Fin 2) * 64 + 1 * b.val = b.val; rw [e1]; omega

theorem w3_blk (c : Dev nD) (t : Fin cfg0.N) (a : Fin 64) (b : Fin 3) :
    iblk m c 5 t (ix2 a b) = V m c main_arg5 (ix2 a b) := by
  obtain ⟨-, -, -, -, -, -, -, -, -, -, e0, e1, -⟩ := index_facts t
  show V m c main_arg5 (((cfg0.win 5).blk t).view.emb (ix2 a b)) = _
  refine congrArg (V m c main_arg5) ?_
  funext ax; apply Fin.ext
  match ax with
  | ⟨0, _⟩ => show win0_5.index t (0 : Fin 2) * 64 + 1 * a.val = a.val; rw [e0]; omega
  | ⟨1, _⟩ => show win0_5.index t (1 : Fin 2) * 3 + 1 * b.val = b.val; rw [e1]; omega

/-- Entry `(p, q)` of the result's block at point `t` is entry `(4096·t + p, q)` of the result array. -/
theorem result_blk (t : Fin cfg0.N) (p : Fin 4096) (q : Fin 3) :
    ((cfg0.win 6).blk t).view.emb (ix2 p q) = (ix2 (grow t p) q : S2097152x3.Idx) := by
  obtain ⟨-, -, -, -, -, -, -, -, -, -, -, -, e0, e1⟩ := index_facts t
  funext ax; apply Fin.ext
  match ax with
  | ⟨0, _⟩ => show win0_6.index t (0 : Fin 2) * 4096 + 1 * p.val = t.val * 4096 + p.val; rw [e0]; omega
  | ⟨1, _⟩ => show win0_6.index t (1 : Fin 2) * 3 + 1 * q.val = q.val; rw [e1]; omega

/-! ## What a point writes back, the cover, and the array after the run -/

/-- What point `t` writes back is block `t` of `radiance` of the argument arrays. -/
theorem flushed_eq (c : Dev nD) (t : Fin cfg0.N) :
    (dats m 0 c).flushed 6 t = ((cfg0.win 6).blk t).view.read (Elt Ideal)
      (radiance (V m c main_arg0) (V m c main_arg1) (V m c main_arg2) (V m c main_arg3) (V m c main_arg4) (V m c main_arg5)) := by
  show (cfg0.win 6).cut (grid0.coords t) ((dats m 0 c).after 6 t) = _
  rw [after0_6]
  unfold out0_6
  rw [View.canon_unit_zero zero_off]
  simp only [View.ld_unit_zero (S := S4096x3) zero_off, View.ld_unit_zero (S := S4096x16) zero_off,
    View.ld_unit_zero (S := S35x64) zero_off, View.ld_unit_zero (S := S64x64) zero_off, View.ld_unit_zero (S := S64x3) zero_off]
  funext j
  obtain ⟨p, q, rfl⟩ : ∃ (p : Fin 4096) (q : Fin 3), j = ix2 p q := ⟨j 0, j 1, eq_ix2 j⟩
  refine (block_eq (iblk m c 0 t) (iblk m c 1 t) (iblk m c 2 t) (iblk m c 3 t) (iblk m c 4 t) (iblk m c 5 t) p q).trans ?_
  have e0 : (fun a : Fin 16 => iblk m c 0 t (ix2 p a)) = fun a => V m c main_arg0 (ix2 (grow t p) a) :=
    funext fun a => features_blk m c t p a
  have e1 : (fun a : Fin 3 => iblk m c 1 t (ix2 p a)) = fun a => V m c main_arg1 (ix2 (grow t p) a) :=
    funext fun a => dirs_blk m c t p a
  have e2 : (fun a : Fin 3 => iblk m c 2 t (ix2 p a)) = fun a => V m c main_arg2 (ix2 (grow t p) a) :=
    funext fun a => normals_blk m c t p a
  have e3 : (fun (a : Fin 35) (b : Fin 64) => iblk m c 3 t (ix2 a b)) = fun a b => V m c main_arg3 (ix2 a b) :=
    funext fun a => funext fun b => w1_blk m c t a b
  have e4 : (fun (a : Fin 64) (b : Fin 64) => iblk m c 4 t (ix2 a b)) = fun a b => V m c main_arg4 (ix2 a b) :=
    funext fun a => funext fun b => w2_blk m c t a b
  have e5 : (fun (a : Fin 64) (b : Fin 3) => iblk m c 5 t (ix2 a b)) = fun a b => V m c main_arg5 (ix2 a b) :=
    funext fun a => funext fun b => w3_blk m c t a b
  rw [e0, e1, e2, e3, e4, e5, View.read_apply, result_blk t p q]
  rfl

/-- An index of the result is in point `t`'s block iff each coordinate is in the block's range on its axis. -/
theorem mem_blk (t : Fin cfg0.N) (i : S2097152x3.Idx) :
    i ∈ ((cfg0.win 6).blk t).view.set ↔ ∀ a : Fin 2, win0_6.index t a * S4096x3.size a ≤ (i a).val
      ∧ (i a).val < win0_6.index t a * S4096x3.size a + S4096x3.size a := by
  show i ∈ ((View.whole main_v0).slice (win0_6.rect t)).set ↔ _
  rw [View.set_slice_whole, Rect.mem_set_unit]
  exact Iff.rfl

/-- Every index of the result lies in the block of the point its row divided by 4096 names. -/
theorem cover (i : S2097152x3.Idx) :
    ∃ t : Fin cfg0.N, (cfg0.win 6).flush t = true ∧ i ∈ ((cfg0.win 6).blk t).view.set := by
  have hi0 : (i 0).val < 2097152 := (i 0).isLt
  have hi1 : (i 1).val < 3 := (i 1).isLt
  have hq : (i 0).val / 4096 < cfg0.N := lt_of_lt_of_eq (by omega : (i 0).val / 4096 < 512) N_0.symm
  refine ⟨⟨(i 0).val / 4096, hq⟩, flush0_6 _, ?_⟩
  rw [mem_blk]
  obtain ⟨-, -, -, -, -, -, -, -, -, -, -, -, e0, e1⟩ := index_facts ⟨(i 0).val / 4096, hq⟩
  intro a
  match a with
  | ⟨0, _⟩ =>
    show win0_6.index ⟨(i 0).val / 4096, hq⟩ (0 : Fin 2) * 4096 ≤ (i 0).val
      ∧ (i 0).val < win0_6.index ⟨(i 0).val / 4096, hq⟩ (0 : Fin 2) * 4096 + 4096
    rw [e0]
    show (i 0).val / 4096 * 4096 ≤ (i 0).val ∧ (i 0).val < (i 0).val / 4096 * 4096 + 4096
    omega
  | ⟨1, _⟩ =>
    show win0_6.index ⟨(i 0).val / 4096, hq⟩ (1 : Fin 2) * 3 ≤ (i 1).val
      ∧ (i 1).val < win0_6.index ⟨(i 0).val / 4096, hq⟩ (1 : Fin 2) * 3 + 3
    rw [e1]
    omega

/-- The result array after the run is `radiance` of the argument arrays. -/
theorem final (c : Dev nD) :
    (dats m 0 c).arrAt 6 cfg0.N = radiance (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) :=
  (dats m 0 c).arrAt_eq_of_cover 6 _ (fun t _ => flushed_eq m c t) cover

/-- The kernel's run: every fair execution ends with the result array at `radiance` of the arguments, the arguments unchanged. -/
theorem kernel_run : θ_run defs (onTc (τ := τ) (main (F := Ideal))) ⟨m, fun _ => 0, ρ⟩ fun r => ∀ c : Dev nD,
      r.2.mem ((c : Thread nD τ).loc main_v0) = radiance (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.Radiance

end
-- ==== Proof.ReferenceReflect.lean ====
/-
  The reference's reflected directions: entry `(r, c)` is component `c` of row `r` of the directions reflected about row `r`
  of the normals, and the three columns taken out as vectors read the three components.
-/
import proofs.«137730_j23888608100391_2_alg».proof.Proof.Gen.ReferenceIdeal.Read
import proofs.«137730_j23888608100391_2_alg».proof.Proof.Spec

noncomputable section

namespace Cert.Radiance

open Idealize.ShloMosaic Idealize.ShloMosaic.ValueIdx Cert.ReferenceIdeal Cert.ReferenceIdeal.Read

/-! ## The reflected direction -/

/-- The broadcast of the `[·, 1]` column along three columns reads, at `(r, c)`, the column at `(r, 0)`. -/
theorem idx_v5_ix2 (r : Fin 2097152) (c : Fin 3) : idx_main_v5 (ix2 r c) = ix2 r (0 : Fin 1) := by
  funext a; match a with | ⟨0, _⟩ => rfl | ⟨1, _⟩ => rfl

/-- The vector of row sums kept as a column reads, at `(r, u)`, the vector at `r`. -/
theorem idx_v2_ix2 (r : Fin 2097152) (u : Fin 1) : idx_main_v2 (ix2 r u) = ix1 r := by
  funext a; match a with | ⟨0, _⟩ => rfl

/-- Term `k` of the row sum at `r` is entry `(r, k)`. -/
theorem idx_v1_ix1 (r : Fin 2097152) (k : Fin 3) : idx_main_v1 (ix1 r) k = ix2 r k := by
  funext a; match a with | ⟨0, _⟩ => rfl | ⟨1, _⟩ => rfl

/-- The row sums of the products, from the zero word: the inner product of the two rows. -/
theorem v1_at (x1 x2 : (⟨S2097152x3, .f32⟩ : BufTy).Contents (Elt Ideal)) (r : Fin 2097152) :
    val_main_v1 (F := Ideal) x1 x2 (ix1 r) = ∑ k : Fin 3, x1 (ix2 r k) * x2 (ix2 r k) := by
  rw [val_main_v1_apply, val_main_cst_apply]
  refine (congrArg (· + _) Ideal.ofBits_zero_f32).trans ?_
  rw [zero_add]
  refine Finset.sum_congr rfl fun k _ => ?_
  rw [idx_v1_ix1, val_main_v0_apply]
  rfl

/-- Entry `(r, c)` of the reflected directions is component `c` of the reflection of row `r` of the directions about row `r`
    of the normals. -/
theorem v7_at (x1 x2 : (⟨S2097152x3, .f32⟩ : BufTy).Contents (Elt Ideal)) (r : Fin 2097152) (c : Fin 3) :
    val_main_v7 (F := Ideal) x1 x2 (ix2 r c) = refl (fun a => x1 (ix2 r a)) (fun a => x2 (ix2 r a)) c := by
  rw [val_main_v7_apply, val_main_v6_apply, val_main_v5_apply, idx_v5_ix2, val_main_v4_apply, val_main_v3_apply,
    val_main_cst_0_apply, val_main_v2_apply, idx_v2_ix2, v1_at]
  rfl

/-! ## Its three components as vectors

Column `c` of the reflected directions, sliced out as a `[·, 1]` column and reshaped to a vector, reads at `r` entry `(r, c)`. -/

theorem idx_v9_ix1 (r : Fin 2097152) : idx_main_v9 (ix1 r) = ix2 r (0 : Fin 1) := by
  funext a; match a with | ⟨0, _⟩ => exact Fin.ext (Nat.div_one _) | ⟨1, _⟩ => rfl
theorem idx_v11_ix1 (r : Fin 2097152) : idx_main_v11 (ix1 r) = ix2 r (0 : Fin 1) := by
  funext a; match a with | ⟨0, _⟩ => exact Fin.ext (Nat.div_one _) | ⟨1, _⟩ => rfl
theorem idx_v13_ix1 (r : Fin 2097152) : idx_main_v13 (ix1 r) = ix2 r (0 : Fin 1) := by
  funext a; match a with | ⟨0, _⟩ => exact Fin.ext (Nat.div_one _) | ⟨1, _⟩ => rfl
theorem idx_v8_ix2 (r : Fin 2097152) : idx_main_v8 (ix2 r (0 : Fin 1)) = ix2 r (0 : Fin 3) := by
  funext a; match a with | ⟨0, _⟩ => rfl | ⟨1, _⟩ => rfl
theorem idx_v10_ix2 (r : Fin 2097152) : idx_main_v10 (ix2 r (0 : Fin 1)) = ix2 r (1 : Fin 3) := by
  funext a; match a with | ⟨0, _⟩ => rfl | ⟨1, _⟩ => rfl
theorem idx_v12_ix2 (r : Fin 2097152) : idx_main_v12 (ix2 r (0 : Fin 1)) = ix2 r (2 : Fin 3) := by
  funext a; match a with | ⟨0, _⟩ => rfl | ⟨1, _⟩ => rfl

/-- The first component vector at `r`. -/
theorem v9_at (x1 x2 : (⟨S2097152x3, .f32⟩ : BufTy).Contents (Elt Ideal)) (r : Fin 2097152) :
    val_main_v9 (F := Ideal) x1 x2 (ix1 r) = refl (fun a => x1 (ix2 r a)) (fun a => x2 (ix2 r a)) 0 := by
  rw [val_main_v9_apply, idx_v9_ix1, val_main_v8_apply, idx_v8_ix2, v7_at]
/-- The second component vector at `r`. -/
theorem v11_at (x1 x2 : (⟨S2097152x3, .f32⟩ : BufTy).Contents (Elt Ideal)) (r : Fin 2097152) :
    val_main_v11 (F := Ideal) x1 x2 (ix1 r) = refl (fun a => x1 (ix2 r a)) (fun a => x2 (ix2 r a)) 1 := by
  rw [val_main_v11_apply, idx_v11_ix1, val_main_v10_apply, idx_v10_ix2, v7_at]
/-- The third component vector at `r`. -/
theorem v13_at (x1 x2 : (⟨S2097152x3, .f32⟩ : BufTy).Contents (Elt Ideal)) (r : Fin 2097152) :
    val_main_v13 (F := Ideal) x1 x2 (ix1 r) = refl (fun a => x1 (ix2 r a)) (fun a => x2 (ix2 r a)) 2 := by
  rw [val_main_v13_apply, idx_v13_ix1, val_main_v12_apply, idx_v12_ix2, v7_at]

end Cert.Radiance

end
-- ==== Proof.ReferenceHarmonics.lean ====
/-
  The reference's sixteen harmonic polynomials: each, as a vector, is at every index the matching entry of `sh` of the three
  component vectors at that index, and each vector laid out as a `[·, 1]` column reads at `(r, u)` the vector at `r`.
-/
import proofs.«137730_j23888608100391_2_alg».proof.Proof.Gen.ReferenceIdeal.Read
import proofs.«137730_j23888608100391_2_alg».proof.Proof.Spec
import proofs.«137730_j23888608100391_2_alg».proof.Proof.LibColumnLayout

noncomputable section

namespace Cert.Radiance

open Idealize.ShloMosaic Idealize.ShloMosaic.ValueIdx Cert.ReferenceIdeal Cert.ReferenceIdeal.Read

/-! ## The sixteen polynomials as vectors

Every operation between the component vectors and a harmonic vector acts entry by entry, and a broadcast scalar reads its word
everywhere, so each identity holds by unfolding. -/

/-- The first harmonic vector. -/
theorem v20_at (x1 x2 : (⟨S2097152x3, .f32⟩ : BufTy).Contents (Elt Ideal)) (i : S2097152.Idx) :
    val_main_v20 (F := Ideal) i = sh (val_main_v9 (F := Ideal) x1 x2 i) (val_main_v11 (F := Ideal) x1 x2 i) (val_main_v13 (F := Ideal) x1 x2 i) ⟨0, by decide⟩ := rfl

/-- The second harmonic vector. -/
theorem v22_at (x1 x2 : (⟨S2097152x3, .f32⟩ : BufTy).Contents (Elt Ideal)) (i : S2097152.Idx) :
    val_main_v22 (F := Ideal) x1 x2 i = sh (val_main_v9 (F := Ideal) x1 x2 i) (val_main_v11 (F := Ideal) x1 x2 i) (val_main_v13 (F := Ideal) x1 x2 i) ⟨1, by decide⟩ := rfl

/-- The third harmonic vector. -/
theorem v24_at (x1 x2 : (⟨S2097152x3, .f32⟩ : BufTy).Contents (Elt Ideal)) (i : S2097152.Idx) :
    val_main_v24 (F := Ideal) x1 x2 i = sh (val_main_v9 (F := Ideal) x1 x2 i) (val_main_v11 (F := Ideal) x1 x2 i) (val_main_v13 (F := Ideal) x1 x2 i) ⟨2, by decide⟩ := rfl

/-- The fourth harmonic vector. -/
theorem v26_at (x1 x2 : (⟨S2097152x3, .f32⟩ : BufTy).Contents (Elt Ideal)) (i : S2097152.Idx) :
    val_main_v26 (F := Ideal) x1 x2 i = sh (val_main_v9 (F := Ideal) x1 x2 i) (val_main_v11 (F := Ideal) x1 x2 i) (val_main_v13 (F := Ideal) x1 x2 i) ⟨3, by decide⟩ := rfl

/-- The fifth harmonic vector. -/
theorem v28_at (x1 x2 : (⟨S2097152x3, .f32⟩ : BufTy).Contents (Elt Ideal)) (i : S2097152.Idx) :
    val_main_v28 (F := Ideal) x1 x2 i = sh (val_main_v9 (F := Ideal) x1 x2 i) (val_main_v11 (F := Ideal) x1 x2 i) (val_main_v13 (F := Ideal) x1 x2 i) ⟨4, by decide⟩ := rfl

/-- The sixth harmonic vector. -/
theorem v30_at (x1 x2 : (⟨S2097152x3, .f32⟩ : BufTy).Contents (Elt Ideal)) (i : S2097152.Idx) :
    val_main_v30 (F := Ideal) x1 x2 i = sh (val_main_v9 (F := Ideal) x1 x2 i) (val_main_v11 (F := Ideal) x1 x2 i) (val_main_v13 (F := Ideal) x1 x2 i) ⟨5, by decide⟩ := rfl

/-- The seventh harmonic vector. -/
theorem v34_at (x1 x2 : (⟨S2097152x3, .f32⟩ : BufTy).Contents (Elt Ideal)) (i : S2097152.Idx) :
    val_main_v34 (F := Ideal) x1 x2 i = sh (val_main_v9 (F := Ideal) x1 x2 i) (val_main_v11 (F := Ideal) x1 x2 i) (val_main_v13 (F := Ideal) x1 x2 i) ⟨6, by decide⟩ := rfl

/-- The eighth harmonic vector. -/
theorem v36_at (x1 x2 : (⟨S2097152x3, .f32⟩ : BufTy).Contents (Elt Ideal)) (i : S2097152.Idx) :
    val_main_v36 (F := Ideal) x1 x2 i = sh (val_main_v9 (F := Ideal) x1 x2 i) (val_main_v11 (F := Ideal) x1 x2 i) (val_main_v13 (F := Ideal) x1 x2 i) ⟨7, by decide⟩ := rfl

/-- The ninth harmonic vector. -/
theorem v39_at (x1 x2 : (⟨S2097152x3, .f32⟩ : BufTy).Contents (Elt Ideal)) (i : S2097152.Idx) :
    val_main_v39 (F := Ideal) x1 x2 i = sh (val_main_v9 (F := Ideal) x1 x2 i) (val_main_v11 (F := Ideal) x1 x2 i) (val_main_v13 (F := Ideal) x1 x2 i) ⟨8, by decide⟩ := rfl

/-- The tenth harmonic vector. -/
theorem v45_at (x1 x2 : (⟨S2097152x3, .f32⟩ : BufTy).Contents (Elt Ideal)) (i : S2097152.Idx) :
    val_main_v45 (F := Ideal) x1 x2 i = sh (val_main_v9 (F := Ideal) x1 x2 i) (val_main_v11 (F := Ideal) x1 x2 i) (val_main_v13 (F := Ideal) x1 x2 i) ⟨9, by decide⟩ := rfl

/-- The eleventh harmonic vector. -/
theorem v48_at (x1 x2 : (⟨S2097152x3, .f32⟩ : BufTy).Contents (Elt Ideal)) (i : S2097152.Idx) :
    val_main_v48 (F := Ideal) x1 x2 i = sh (val_main_v9 (F := Ideal) x1 x2 i) (val_main_v11 (F := Ideal) x1 x2 i) (val_main_v13 (F := Ideal) x1 x2 i) ⟨10, by decide⟩ := rfl

/-- The twelfth harmonic vector. -/
theorem v55_at (x1 x2 : (⟨S2097152x3, .f32⟩ : BufTy).Contents (Elt Ideal)) (i : S2097152.Idx) :
    val_main_v55 (F := Ideal) x1 x2 i = sh (val_main_v9 (F := Ideal) x1 x2 i) (val_main_v11 (F := Ideal) x1 x2 i) (val_main_v13 (F := Ideal) x1 x2 i) ⟨11, by decide⟩ := rfl

/-- The thirteenth harmonic vector. -/
theorem v62_at (x1 x2 : (⟨S2097152x3, .f32⟩ : BufTy).Contents (Elt Ideal)) (i : S2097152.Idx) :
    val_main_v62 (F := Ideal) x1 x2 i = sh (val_main_v9 (F := Ideal) x1 x2 i) (val_main_v11 (F := Ideal) x1 x2 i) (val_main_v13 (F := Ideal) x1 x2 i) ⟨12, by decide⟩ := rfl

/-- The fourteenth harmonic vector. -/
theorem v69_at (x1 x2 : (⟨S2097152x3, .f32⟩ : BufTy).Contents (Elt Ideal)) (i : S2097152.Idx) :
    val_main_v69 (F := Ideal) x1 x2 i = sh (val_main_v9 (F := Ideal) x1 x2 i) (val_main_v11 (F := Ideal) x1 x2 i) (val_main_v13 (F := Ideal) x1 x2 i) ⟨13, by decide⟩ := rfl

/-- The fifteenth harmonic vector. -/
theorem v73_at (x1 x2 : (⟨S2097152x3, .f32⟩ : BufTy).Contents (Elt Ideal)) (i : S2097152.Idx) :
    val_main_v73 (F := Ideal) x1 x2 i = sh (val_main_v9 (F := Ideal) x1 x2 i) (val_main_v11 (F := Ideal) x1 x2 i) (val_main_v13 (F := Ideal) x1 x2 i) ⟨14, by decide⟩ := rfl

/-- The sixteenth harmonic vector. -/
theorem v80_at (x1 x2 : (⟨S2097152x3, .f32⟩ : BufTy).Contents (Elt Ideal)) (i : S2097152.Idx) :
    val_main_v80 (F := Ideal) x1 x2 i = sh (val_main_v9 (F := Ideal) x1 x2 i) (val_main_v11 (F := Ideal) x1 x2 i) (val_main_v13 (F := Ideal) x1 x2 i) ⟨15, by decide⟩ := rfl

/-! ## The sixteen vectors as columns -/

/-- The first column at `(r, u)` is the first harmonic vector at `r`. -/
theorem v81_at (x1 x2 : (⟨S2097152x3, .f32⟩ : BufTy).Contents (Elt Ideal)) (r : Fin 2097152) (u : Fin 1) :
    val_main_v81 (F := Ideal) (ix2 r u) = val_main_v20 (F := Ideal) (ix1 r) :=
  Cert.LibColumnLayout.broadcastInDim_a_a1_apply _ _ r u

/-- The second column at `(r, u)` is the second harmonic vector at `r`. -/
theorem v82_at (x1 x2 : (⟨S2097152x3, .f32⟩ : BufTy).Contents (Elt Ideal)) (r : Fin 2097152) (u : Fin 1) :
    val_main_v82 (F := Ideal) x1 x2 (ix2 r u) = val_main_v22 (F := Ideal) x1 x2 (ix1 r) :=
  Cert.LibColumnLayout.broadcastInDim_a_a1_apply _ _ r u

/-- The third column at `(r, u)` is the third harmonic vector at `r`. -/
theorem v83_at (x1 x2 : (⟨S2097152x3, .f32⟩ : BufTy).Contents (Elt Ideal)) (r : Fin 2097152) (u : Fin 1) :
    val_main_v83 (F := Ideal) x1 x2 (ix2 r u) = val_main_v24 (F := Ideal) x1 x2 (ix1 r) :=
  Cert.LibColumnLayout.broadcastInDim_a_a1_apply _ _ r u

/-- The fourth column at `(r, u)` is the fourth harmonic vector at `r`. -/
theorem v84_at (x1 x2 : (⟨S2097152x3, .f32⟩ : BufTy).Contents (Elt Ideal)) (r : Fin 2097152) (u : Fin 1) :
    val_main_v84 (F := Ideal) x1 x2 (ix2 r u) = val_main_v26 (F := Ideal) x1 x2 (ix1 r) :=
  Cert.LibColumnLayout.broadcastInDim_a_a1_apply _ _ r u

/-- The fifth column at `(r, u)` is the fifth harmonic vector at `r`. -/
theorem v85_at (x1 x2 : (⟨S2097152x3, .f32⟩ : BufTy).Contents (Elt Ideal)) (r : Fin 2097152) (u : Fin 1) :
    val_main_v85 (F := Ideal) x1 x2 (ix2 r u) = val_main_v28 (F := Ideal) x1 x2 (ix1 r) :=
  Cert.LibColumnLayout.broadcastInDim_a_a1_apply _ _ r u

/-- The sixth column at `(r, u)` is the sixth harmonic vector at `r`. -/
theorem v86_at (x1 x2 : (⟨S2097152x3, .f32⟩ : BufTy).Contents (Elt Ideal)) (r : Fin 2097152) (u : Fin 1) :
    val_main_v86 (F := Ideal) x1 x2 (ix2 r u) = val_main_v30 (F := Ideal) x1 x2 (ix1 r) :=
  Cert.LibColumnLayout.broadcastInDim_a_a1_apply _ _ r u

/-- The seventh column at `(r, u)` is the seventh harmonic vector at `r`. -/
theorem v87_at (x1 x2 : (⟨S2097152x3, .f32⟩ : BufTy).Contents (Elt Ideal)) (r : Fin 2097152) (u : Fin 1) :
    val_main_v87 (F := Ideal) x1 x2 (ix2 r u) = val_main_v34 (F := Ideal) x1 x2 (ix1 r) :=
  Cert.LibColumnLayout.broadcastInDim_a_a1_apply _ _ r u

/-- The eighth column at `(r, u)` is the eighth harmonic vector at `r`. -/
theorem v88_at (x1 x2 : (⟨S2097152x3, .f32⟩ : BufTy).Contents (Elt Ideal)) (r : Fin 2097152) (u : Fin 1) :
    val_main_v88 (F := Ideal) x1 x2 (ix2 r u) = val_main_v36 (F := Ideal) x1 x2 (ix1 r) :=
  Cert.LibColumnLayout.broadcastInDim_a_a1_apply _ _ r u

/-- The ninth column at `(r, u)` is the ninth harmonic vector at `r`. -/
theorem v89_at (x1 x2 : (⟨S2097152x3, .f32⟩ : BufTy).Contents (Elt Ideal)) (r : Fin 2097152) (u : Fin 1) :
    val_main_v89 (F := Ideal) x1 x2 (ix2 r u) = val_main_v39 (F := Ideal) x1 x2 (ix1 r) :=
  Cert.LibColumnLayout.broadcastInDim_a_a1_apply _ _ r u

/-- The tenth column at `(r, u)` is the tenth harmonic vector at `r`. -/
theorem v90_at (x1 x2 : (⟨S2097152x3, .f32⟩ : BufTy).Contents (Elt Ideal)) (r : Fin 2097152) (u : Fin 1) :
    val_main_v90 (F := Ideal) x1 x2 (ix2 r u) = val_main_v45 (F := Ideal) x1 x2 (ix1 r) :=
  Cert.LibColumnLayout.broadcastInDim_a_a1_apply _ _ r u

/-- The eleventh column at `(r, u)` is the eleventh harmonic vector at `r`. -/
theorem v91_at (x1 x2 : (⟨S2097152x3, .f32⟩ : BufTy).Contents (Elt Ideal)) (r : Fin 2097152) (u : Fin 1) :
    val_main_v91 (F := Ideal) x1 x2 (ix2 r u) = val_main_v48 (F := Ideal) x1 x2 (ix1 r) :=
  Cert.LibColumnLayout.broadcastInDim_a_a1_apply _ _ r u

/-- The twelfth column at `(r, u)` is the twelfth harmonic vector at `r`. -/
theorem v92_at (x1 x2 : (⟨S2097152x3, .f32⟩ : BufTy).Contents (Elt Ideal)) (r : Fin 2097152) (u : Fin 1) :
    val_main_v92 (F := Ideal) x1 x2 (ix2 r u) = val_main_v55 (F := Ideal) x1 x2 (ix1 r) :=
  Cert.LibColumnLayout.broadcastInDim_a_a1_apply _ _ r u

/-- The thirteenth column at `(r, u)` is the thirteenth harmonic vector at `r`. -/
theorem v93_at (x1 x2 : (⟨S2097152x3, .f32⟩ : BufTy).Contents (Elt Ideal)) (r : Fin 2097152) (u : Fin 1) :
    val_main_v93 (F := Ideal) x1 x2 (ix2 r u) = val_main_v62 (F := Ideal) x1 x2 (ix1 r) :=
  Cert.LibColumnLayout.broadcastInDim_a_a1_apply _ _ r u

/-- The fourteenth column at `(r, u)` is the fourteenth harmonic vector at `r`. -/
theorem v94_at (x1 x2 : (⟨S2097152x3, .f32⟩ : BufTy).Contents (Elt Ideal)) (r : Fin 2097152) (u : Fin 1) :
    val_main_v94 (F := Ideal) x1 x2 (ix2 r u) = val_main_v69 (F := Ideal) x1 x2 (ix1 r) :=
  Cert.LibColumnLayout.broadcastInDim_a_a1_apply _ _ r u

/-- The fifteenth column at `(r, u)` is the fifteenth harmonic vector at `r`. -/
theorem v95_at (x1 x2 : (⟨S2097152x3, .f32⟩ : BufTy).Contents (Elt Ideal)) (r : Fin 2097152) (u : Fin 1) :
    val_main_v95 (F := Ideal) x1 x2 (ix2 r u) = val_main_v73 (F := Ideal) x1 x2 (ix1 r) :=
  Cert.LibColumnLayout.broadcastInDim_a_a1_apply _ _ r u

/-- The sixteenth column at `(r, u)` is the sixteenth harmonic vector at `r`. -/
theorem v96_at (x1 x2 : (⟨S2097152x3, .f32⟩ : BufTy).Contents (Elt Ideal)) (r : Fin 2097152) (u : Fin 1) :
    val_main_v96 (F := Ideal) x1 x2 (ix2 r u) = val_main_v80 (F := Ideal) x1 x2 (ix1 r) :=
  Cert.LibColumnLayout.broadcastInDim_a_a1_apply _ _ r u

end Cert.Radiance

end
-- ==== Proof.ReferenceHarmonicsArray.lean ====
/-
  The reference's harmonics array, sixteen `[·, 1]` columns side by side: entry `(r, q)` is harmonic `q` of the reflection of
  row `r` of the directions about row `r` of the normals.
-/
import proofs.«137730_j23888608100391_2_alg».proof.Proof.ReferenceReflect
import proofs.«137730_j23888608100391_2_alg».proof.Proof.ReferenceHarmonics

noncomputable section

namespace Cert.Radiance

open Idealize.ShloMosaic Idealize.ShloMosaic.ValueIdx Cert.ReferenceIdeal Cert.ReferenceIdeal.Read

/-- The sixteen columns, in order. -/
def cols (x1 x2 : (⟨S2097152x3, .f32⟩ : BufTy).Contents (Elt Ideal)) : Fin 16 → (S2097152x1.Idx → EReal) :=
  ![val_main_v81 (F := Ideal),
    val_main_v82 (F := Ideal) x1 x2,
    val_main_v83 (F := Ideal) x1 x2,
    val_main_v84 (F := Ideal) x1 x2,
    val_main_v85 (F := Ideal) x1 x2,
    val_main_v86 (F := Ideal) x1 x2,
    val_main_v87 (F := Ideal) x1 x2,
    val_main_v88 (F := Ideal) x1 x2,
    val_main_v89 (F := Ideal) x1 x2,
    val_main_v90 (F := Ideal) x1 x2,
    val_main_v91 (F := Ideal) x1 x2,
    val_main_v92 (F := Ideal) x1 x2,
    val_main_v93 (F := Ideal) x1 x2,
    val_main_v94 (F := Ideal) x1 x2,
    val_main_v95 (F := Ideal) x1 x2,
    val_main_v96 (F := Ideal) x1 x2]

/-- Entry `(r, q)` of the sixteen columns laid side by side is column `q` at `(r, 0)`. -/
theorem v97_at_col (x1 x2 : (⟨S2097152x3, .f32⟩ : BufTy).Contents (Elt Ideal)) (r : Fin 2097152) (q : Fin 16) :
    val_main_v97 (F := Ideal) x1 x2 (ix2 r q) = cols x1 x2 q (ix2 r (0 : Fin 1)) :=
  concatenate_ofFn_unit_apply (1 : Fin S2097152x16.rank) (cols x1 x2) _ rfl rfl (ix2 r q) q rfl (ix2 r (0 : Fin 1))
    (fun b => match b with
      | ⟨0, _⟩ => fun _ => rfl
      | ⟨1, _⟩ => fun h => absurd rfl h)

/-- Entry `(r, q)` of the harmonics array is harmonic `q` of the three component vectors at `r`. -/
theorem v97_at_vec (x1 x2 : (⟨S2097152x3, .f32⟩ : BufTy).Contents (Elt Ideal)) (r : Fin 2097152) (q : Fin 16) :
    val_main_v97 (F := Ideal) x1 x2 (ix2 r q) =
      sh (val_main_v9 (F := Ideal) x1 x2 (ix1 r)) (val_main_v11 (F := Ideal) x1 x2 (ix1 r)) (val_main_v13 (F := Ideal) x1 x2 (ix1 r)) q := by
  refine (v97_at_col x1 x2 r q).trans ?_
  match q with
  | ⟨0, _⟩ => exact (v81_at x1 x2 r 0).trans (v20_at x1 x2 (ix1 r))
  | ⟨1, _⟩ => exact (v82_at x1 x2 r 0).trans (v22_at x1 x2 (ix1 r))
  | ⟨2, _⟩ => exact (v83_at x1 x2 r 0).trans (v24_at x1 x2 (ix1 r))
  | ⟨3, _⟩ => exact (v84_at x1 x2 r 0).trans (v26_at x1 x2 (ix1 r))
  | ⟨4, _⟩ => exact (v85_at x1 x2 r 0).trans (v28_at x1 x2 (ix1 r))
  | ⟨5, _⟩ => exact (v86_at x1 x2 r 0).trans (v30_at x1 x2 (ix1 r))
  | ⟨6, _⟩ => exact (v87_at x1 x2 r 0).trans (v34_at x1 x2 (ix1 r))
  | ⟨7, _⟩ => exact (v88_at x1 x2 r 0).trans (v36_at x1 x2 (ix1 r))
  | ⟨8, _⟩ => exact (v89_at x1 x2 r 0).trans (v39_at x1 x2 (ix1 r))
  | ⟨9, _⟩ => exact (v90_at x1 x2 r 0).trans (v45_at x1 x2 (ix1 r))
  | ⟨10, _⟩ => exact (v91_at x1 x2 r 0).trans (v48_at x1 x2 (ix1 r))
  | ⟨11, _⟩ => exact (v92_at x1 x2 r 0).trans (v55_at x1 x2 (ix1 r))
  | ⟨12, _⟩ => exact (v93_at x1 x2 r 0).trans (v62_at x1 x2 (ix1 r))
  | ⟨13, _⟩ => exact (v94_at x1 x2 r 0).trans (v69_at x1 x2 (ix1 r))
  | ⟨14, _⟩ => exact (v95_at x1 x2 r 0).trans (v73_at x1 x2 (ix1 r))
  | ⟨15, _⟩ => exact (v96_at x1 x2 r 0).trans (v80_at x1 x2 (ix1 r))
  | ⟨n + 16, h⟩ => exact absurd h (by omega)

/-- Entry `(r, q)` of the harmonics array is harmonic `q` of the reflection of row `r`. -/
theorem v97_at (x1 x2 : (⟨S2097152x3, .f32⟩ : BufTy).Contents (Elt Ideal)) (r : Fin 2097152) (q : Fin 16) :
    val_main_v97 (F := Ideal) x1 x2 (ix2 r q) =
      sh (refl (fun a => x1 (ix2 r a)) (fun a => x2 (ix2 r a)) 0) (refl (fun a => x1 (ix2 r a)) (fun a => x2 (ix2 r a)) 1)
        (refl (fun a => x1 (ix2 r a)) (fun a => x2 (ix2 r a)) 2) q := by
  rw [v97_at_vec, v9_at, v11_at, v13_at]

end Cert.Radiance

end
-- ==== Proof.ReferenceInput.lean ====
/-
  Row `r` of the reference's 35-column array is `inp` of the feature row, the harmonics of the reflected direction, and the normal.
-/
import proofs.«137730_j23888608100391_2_alg».proof.Proof.Gen.ReferenceIdeal.Read
import proofs.«137730_j23888608100391_2_alg».proof.Proof.Spec
import proofs.«137730_j23888608100391_2_alg».proof.Proof.ReferenceHarmonicsArray

noncomputable section

namespace Cert.Radiance

open Idealize.ShloMosaic Idealize.ShloMosaic.ValueIdx

open Cert.ReferenceIdeal in
theorem reference_input (x0 : (⟨S2097152x16, .f32⟩ : BufTy).Contents (Elt Ideal)) (x1 x2 : (⟨S2097152x3, .f32⟩ : BufTy).Contents (Elt Ideal))
    (r : Fin 2097152) (i : Fin 35) :
    Cert.ReferenceIdeal.Read.val_main_v98 (F := Ideal) x0 x1 x2 (ix2 r i)
    = inp (fun a => x0 (ix2 r a))
        (sh (refl (fun a => x1 (ix2 r a)) (fun a => x2 (ix2 r a)) 0) (refl (fun a => x1 (ix2 r a)) (fun a => x2 (ix2 r a)) 1)
          (refl (fun a => x1 (ix2 r a)) (fun a => x2 (ix2 r a)) 2))
        (fun a => x2 (ix2 r a)) i := by
  unfold Cert.ReferenceIdeal.Read.val_main_v98 inp
  -- the three pieces span the columns `[0, 16)`, `[16, 32)` and `[32, 35)`
  by_cases h1 : i.val < 16
  · rw [dif_pos h1]
    exact concatenate_apply_piece (1 : Fin S2097152x35.rank) _ _ (ix2 r i) 0 (by show (0 : Nat) < 3; decide) S2097152x16 x0 rfl rfl 0 rfl
      (ix2 r (⟨i.val, h1⟩ : Fin 16)) (fun b => match b with
        | ⟨0, _⟩ => fun _ => rfl
        | ⟨1, _⟩ => fun h => absurd rfl h) (Nat.zero_add _)
  · rw [dif_neg h1]
    by_cases h2 : i.val < 32
    · rw [dif_pos h2]
      refine (concatenate_apply_piece (1 : Fin S2097152x35.rank) _ _ (ix2 r i) 1 (by show (1 : Nat) < 3; decide) S2097152x16
        (Cert.ReferenceIdeal.Read.val_main_v97 (F := Ideal) x1 x2) rfl rfl 16 rfl
        (ix2 r (⟨i.val - 16, by omega⟩ : Fin 16)) (fun b => match b with
          | ⟨0, _⟩ => fun _ => rfl
          | ⟨1, _⟩ => fun h => absurd rfl h) (by show 16 + (i.val - 16) = i.val; omega)).trans ?_
      exact v97_at x1 x2 r _
    · rw [dif_neg h2]
      have h3 : i.val < 35 := i.isLt
      exact concatenate_apply_piece (1 : Fin S2097152x35.rank) _ _ (ix2 r i) 2 (by show (2 : Nat) < 3; decide) S2097152x3 x2 rfl rfl 32 rfl
        (ix2 r (⟨i.val - 32, by omega⟩ : Fin 3)) (fun b => match b with
          | ⟨0, _⟩ => fun _ => rfl
          | ⟨1, _⟩ => fun h => absurd rfl h) (by show 32 + (i.val - 32) = i.val; omega)

end Cert.Radiance

end
-- ==== Proof.ReferenceLayers.lean ====
/-
  The perceptron at one row of the reference.

  On the extended reals the host's matrix product is, entry by entry, the plain sum over the contracted index. The reference
  takes three such products, replaces every entry by its maximum with zero after the first two, and after the third takes
  `1 / (1 + e^(−t))` written out as a negation, an exponential, a sum and a quotient: the logistic function. So its result at
  row `r`, column `c` is `colour (layer (layer u W1) W2) W3 c`, where `u` is row `r` of its 35-column array.
-/
import proofs.«137730_j23888608100391_2_alg».proof.Proof.Gen.ReferenceIdeal.Read
import proofs.«137730_j23888608100391_2_alg».proof.Proof.Spec

noncomputable section

namespace Cert.Radiance

open Cert.ReferenceIdeal Cert.ReferenceIdeal.Read Idealize.ShloMosaic Idealize.ShloMosaic.ValueIdx

variable (x0 : (⟨S2097152x16, .f32⟩ : BufTy).Contents (Elt Ideal)) (x1 x2 : (⟨S2097152x3, .f32⟩ : BufTy).Contents (Elt Ideal))
  (x3 : (⟨S35x64, .f32⟩ : BufTy).Contents (Elt Ideal)) (x4 : (⟨S64x64, .f32⟩ : BufTy).Contents (Elt Ideal))
  (x5 : (⟨S64x3, .f32⟩ : BufTy).Contents (Elt Ideal))

/-! ## Where each product reads its operands -/

theorem lidx_v99 (r : Fin 2097152) (j : Fin 64) (k : Fin 35) : lidx_main_v99 (ix2 r j) k = ix2 r k := by
  funext a; match a with | ⟨0, _⟩ => rfl | ⟨1, _⟩ => rfl
theorem ridx_v99 (r : Fin 2097152) (j : Fin 64) (k : Fin 35) : ridx_main_v99 (ix2 r j) k = ix2 k j := by
  funext a; match a with | ⟨0, _⟩ => rfl | ⟨1, _⟩ => rfl
theorem lidx_v101 (r : Fin 2097152) (j : Fin 64) (k : Fin 64) : lidx_main_v101 (ix2 r j) k = ix2 r k := by
  funext a; match a with | ⟨0, _⟩ => rfl | ⟨1, _⟩ => rfl
theorem ridx_v101 (r : Fin 2097152) (j : Fin 64) (k : Fin 64) : ridx_main_v101 (ix2 r j) k = ix2 k j := by
  funext a; match a with | ⟨0, _⟩ => rfl | ⟨1, _⟩ => rfl
theorem lidx_v103 (r : Fin 2097152) (c : Fin 3) (k : Fin 64) : lidx_main_v103 (ix2 r c) k = ix2 r k := by
  funext a; match a with | ⟨0, _⟩ => rfl | ⟨1, _⟩ => rfl
theorem ridx_v103 (r : Fin 2097152) (c : Fin 3) (k : Fin 64) : ridx_main_v103 (ix2 r c) k = ix2 k c := by
  funext a; match a with | ⟨0, _⟩ => rfl | ⟨1, _⟩ => rfl

/-! ## The layers -/

/-- The first hidden layer at `(r, j)`. -/
theorem hidden1 (r : Fin 2097152) (j : Fin 64) :
    val_main_v100 (F := Ideal) x0 x1 x2 x3 (ix2 r j)
    = layer (fun i : Fin 35 => val_main_v98 (F := Ideal) x0 x1 x2 (ix2 r i)) (fun a b => x3 (ix2 a b)) j := by
  rw [val_main_v100_apply, val_main_v99_apply, val_main_call0_v0_apply, val_main_call0_cst_apply]
  simp only [lidx_v99, ridx_v99]
  rfl

/-- The second hidden layer at `(r, k)`. -/
theorem hidden2 (r : Fin 2097152) (k : Fin 64) :
    val_main_v102 (F := Ideal) x0 x1 x2 x3 x4 (ix2 r k)
    = layer (layer (fun i : Fin 35 => val_main_v98 (F := Ideal) x0 x1 x2 (ix2 r i)) (fun a b => x3 (ix2 a b)))
        (fun a b => x4 (ix2 a b)) k := by
  rw [val_main_v102_apply, val_main_v101_apply, val_main_call1_v0_apply, val_main_call1_cst_apply]
  simp only [lidx_v101, ridx_v101, hidden1]
  rfl

/-- The reference's result at `(r, c)`: the three layers applied to row `r` of its 35-column array. -/
theorem reference_layers (r : Fin 2097152) (c : Fin 3) :
    val_main_v109 (F := Ideal) x0 x1 x2 x3 x4 x5 (ix2 r c)
    = colour (layer (layer (fun i : Fin 35 => val_main_v98 (F := Ideal) x0 x1 x2 (ix2 r i)) (fun a b => x3 (ix2 a b)))
        (fun a b => x4 (ix2 a b))) (fun a b => x5 (ix2 a b)) c := by
  rw [val_main_v109_apply, val_main_v108_apply, val_main_cst_27_apply, val_main_v107_apply, val_main_v106_apply,
    val_main_cst_26_apply, val_main_v105_apply, val_main_v104_apply, val_main_v103_apply]
  simp only [lidx_v103, ridx_v103, hidden2]
  unfold colour
  exact logistic_eq_div _

end Cert.Radiance

end
-- ==== Proof.Reference.lean ====
/-
  The reference program's result array is `radiance` of its six argument arrays: at row `r` its 35-column array is `inp` of the
  feature row, the harmonics of the reflected direction and the normal, and the rest is the three layers.
-/
import proofs.«137730_j23888608100391_2_alg».proof.Proof.ReferenceInput
import proofs.«137730_j23888608100391_2_alg».proof.Proof.ReferenceLayers

noncomputable section

namespace Cert.Radiance

open Idealize.ShloMosaic Idealize.ShloMosaic.ValueIdx

open Cert.ReferenceIdeal in
theorem reference_eq (x0 : (⟨S2097152x16, .f32⟩ : BufTy).Contents (Elt Ideal)) (x1 x2 : (⟨S2097152x3, .f32⟩ : BufTy).Contents (Elt Ideal))
    (x3 : (⟨S35x64, .f32⟩ : BufTy).Contents (Elt Ideal)) (x4 : (⟨S64x64, .f32⟩ : BufTy).Contents (Elt Ideal))
    (x5 : (⟨S64x3, .f32⟩ : BufTy).Contents (Elt Ideal)) :
    Cert.ReferenceIdeal.Read.val_main_v109 (F := Ideal) x0 x1 x2 x3 x4 x5 = radiance x0 x1 x2 x3 x4 x5 := by
  funext i
  obtain ⟨r, c, rfl⟩ : ∃ (r : Fin 2097152) (c : Fin 3), i = ix2 r c := ⟨i 0, i 1, eq_ix2 i⟩
  refine (reference_layers x0 x1 x2 x3 x4 x5 r c).trans ?_
  rw [funext fun i : Fin 35 => reference_input x0 x1 x2 r i]
  rfl

end Cert.Radiance

end
-- ==== Proof.lean ====
/-
  The kernel and its reference compute one array on the extended reals.

  Both programs take, for each of 2097152 samples, a feature row, a viewing direction and a surface normal, reflect the
  direction about the normal, evaluate the sixteen spherical harmonics of degree below four on the reflected direction, and
  pass features, harmonics and normal through a three-layer perceptron with the logistic function at the end
  (`Cert.Radiance.radiance`, Proof/Spec.lean). The kernel does this 4096 samples at a time at 512 grid points; its result
  array after the run is `radiance` of its arguments because each point writes back the block of `radiance` that its rows name
  and the blocks cover the array (Proof/KernelBlock.lean, Proof/KernelArray.lean). The reference does it on the whole arrays at
  once, and its result is `radiance` of its arguments as well (Proof/Reference.lean). The two spell the same real-number
  expression with the same f32 coefficients; they differ only in how the arrays are laid out, in writing the constant harmonic
  as one times its coefficient, a negation as a subtraction from zero, and the logistic function as one operation or as a
  quotient — none of which changes a value on the extended reals, so the inputs' finiteness is never used.

  The three frame claims are the generated frame proofs (the reference's is its generated run with the result dropped), and
  the idealized kernel is the kernel's own text read on the extended reals: the idealization rewrote nothing.
-/
import proofs.«137730_j23888608100391_2_alg».proof.Defs
import proofs.«137730_j23888608100391_2_alg».proof.Proof.Gen.Kernel
import proofs.«137730_j23888608100391_2_alg».proof.Proof.Gen.Kernel.Skeleton
import proofs.«137730_j23888608100391_2_alg».proof.Proof.Gen.Kernel.Launch
import proofs.«137730_j23888608100391_2_alg».proof.Proof.Gen.Kernel.Points
import proofs.«137730_j23888608100391_2_alg».proof.Proof.Gen.Kernel.Frame
import proofs.«137730_j23888608100391_2_alg».proof.Proof.Gen.KernelIdeal
import proofs.«137730_j23888608100391_2_alg».proof.Proof.Gen.KernelIdeal.Skeleton
import proofs.«137730_j23888608100391_2_alg».proof.Proof.Gen.KernelIdeal.Launch
import proofs.«137730_j23888608100391_2_alg».proof.Proof.Gen.KernelIdeal.Points
import proofs.«137730_j23888608100391_2_alg».proof.Proof.Gen.KernelIdeal.Frame
import proofs.«137730_j23888608100391_2_alg».proof.Proof.Gen.ReferenceIdeal
import proofs.«137730_j23888608100391_2_alg».proof.Proof.Gen.Pre_finite_inputs
import proofs.«137730_j23888608100391_2_alg».proof.Proof.Gen.KernelIdeal.Value
import proofs.«137730_j23888608100391_2_alg».proof.Proof.Gen.ReferenceIdeal.Run
import proofs.«137730_j23888608100391_2_alg».proof.Proof.Gen.ReferenceIdeal.Read
import proofs.«137730_j23888608100391_2_alg».proof.Proof.Spec
import proofs.«137730_j23888608100391_2_alg».proof.Proof.KernelArray
import proofs.«137730_j23888608100391_2_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the six arguments both programs end with the result array at `radiance` of those arguments. -/
theorem algebraic : Cert.algebraic_KernelIdeal_ReferenceIdeal := by
  intro m ρ m' ρ' _ hagree
  refine ⟨_, Cert.Radiance.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v109_eq, Cert.Radiance.reference_eq, (hagree c).1, (hagree c).2.1, (hagree c).2.2.1,
    (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
